-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x1152 : S_.BroadcastsInDim S512x1152 (![] : Fin 0 → Fin S512x1152.rank)
  reducesTo_S512x1152_S_d0_1 : S512x1152.ReducesTo [0, 1] S_
  bcast_S_S1152 : S_.BroadcastsInDim S1152 (![] : Fin 0 → Fin S1152.rank)
  reducesTo_S1152_S_d0 : S1152.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S512 .f32) (main_arg9 : FVec F S512x128 .f32) (main_arg10 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S512x1152 .f32) (main_arg6 : FVec F S1152 .f32) (main_arg7 : FVec F S512x512 .f32) (main_arg8 : FVec F S512 .f32) (main_arg9 : FVec F S512x128 .f32) (main_arg10 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1152 .f32 := Host.absf main_arg5
  let main_cst_6 : FVec F S_ .f32 := constant S_ .f32 0x7F800000#32
  let main_v20 : FVec F S512x1152 .f32 := broadcastInDim S512x1152 ![] bcast_S_S512x1152 main_cst_6
  let main_v21 : IVec S512x1152 1 := cmpf .olt main_v19 main_v20
  let main_c_7 : IVec S_ 1 := constantI S_ 1 1#1
  let main_v22 : IVec S_ 1 := (fun x v => Host.reduce IntOp.andi x v reducesTo_S512x1152_S_d0_1 h_S_) main_v21 main_c_7
  let main_v23 : IVec S_ 1 := andi main_v18 main_v22
  let main_v24 : FVec F S1152 .f32 := Host.absf main_arg6
  let main_cst_8 : FVec F S_ .f32 := constant S_ .f32 0x7F800000#32
  let main_v25 : FVec F S1152 .f32 := broadcastInDim S1152 ![] bcast_S_S1152 main_cst_8
  let main_v26 : IVec S1152 1 := cmpf .olt main_v24 main_v25
  let main_c_9 : IVec S_ 1 := constantI S_ 1 1#1
  let main_v27 : IVec S_ 1 := (fun x v => Host.reduce IntOp.andi x v reducesTo_S1152_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S200000x128 .f32) (main_arg2 : IVec S200000x2 32) (main_arg3 : FVec F S384x512 .f32) (main_arg4 : FVec F S512 .f32) (main_arg5 : FVec F S512x1152 .f32) (main_arg6 : FVec F S1152 .f32) (main_arg7 : FVec F S512x512 .f32) (main_arg8 : FVec F S512 .f32) (main_arg9 : FVec F S512x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S384x512 .f32 := Host.absf main_arg3
  let main_cst_2 : FVec F S_ .f32 := constant S_ .f32 0x7F800000#32
  let main_v10 : FVec F S384x512 .f32 := broadcastInDim S384x512 ![] bcast_S_S384x512 main_cst_2
  let main_v11 : IVec S384x512 1 := cmpf .olt main_v9 main_v10
  let main_c_3 : IVec S_ 1 := constantI S_ 1 1#1
  let main_v12 : IVec S_ 1 := (fun x v => Host.reduce IntOp.andi x v reducesTo_S384x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S200000x1 : Shape := ⟨2, ![200000, 1]⟩
abbrev S200000 : Shape := ⟨1, ![200000]⟩
abbrev S_ : Shape := ⟨0, ![]⟩
abbrev S200000x512 : Shape := ⟨2, ![200000, 512]⟩
abbrev S1600x128 : Shape := ⟨2, ![1600, 128]⟩
abbrev S1600x512 : Shape := ⟨2, ![1600, 512]⟩
abbrev S128x512 : Shape := ⟨2, ![128, 512]⟩
abbrev S1x512 : Shape := ⟨2, ![1, 512]⟩
abbrev S1600x1152 : Shape := ⟨2, ![1600, 1152]⟩
abbrev S1x1152 : Shape := ⟨2, ![1, 1152]⟩
abbrev S50000x512 : Shape := ⟨2, ![50000, 512]⟩
abbrev S50000 : Shape := ⟨1, ![50000]⟩
abbrev S50000x1 : Shape := ⟨2, ![50000, 1]⟩
abbrev S2000x512 : Shape := ⟨2, ![2000, 512]⟩
abbrev S2000x1 : Shape := ⟨2, ![2000, 1]⟩
abbrev S2000x128 : Shape := ⟨2, ![2000, 128]⟩
abbrev S1x128 : Shape := ⟨2, ![1, 128]⟩

abbrev nBuf : Space → Nat
  | .hbm => 64
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S200000x2, .i32⟩
  | .hbm, ⟨3, _⟩ => ⟨S384x512, .f32⟩
  | .hbm, ⟨4, _⟩ => ⟨S512, .f32⟩
  | .hbm, ⟨5, _⟩ => ⟨S512x1152, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S50000x128, .bf16⟩
  | .hbm, ⟨16, _⟩ => ⟨S200000x128, .bf16⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S200000x128, .bf16⟩
  | .hbm, ⟨26, _⟩ => ⟨S_, .i32⟩
  | .hbm, ⟨27, _⟩ => ⟨S200000, .i32⟩
  | .hbm, ⟨28, _⟩ => ⟨S200000, .i1⟩
  | .hbm, ⟨29, _⟩ => ⟨S_, .i32⟩
  | .hbm, ⟨30, _⟩ => ⟨S200000, .i32⟩
  | .hbm, ⟨31, _⟩ => ⟨S200000, .i32⟩
  | .hbm, ⟨32, _⟩ => ⟨S200000, .i32⟩
  | .hbm, ⟨33, _⟩ => ⟨S200000x1, .i32⟩
  | .hbm, ⟨34, _⟩ => ⟨S200000x128, .bf16⟩
  | .hbm, ⟨35, _⟩ => ⟨S384x512, .bf16⟩
  | .hbm, ⟨36, _⟩ => ⟨S512x1152, .bf16⟩
  | .hbm, ⟨37, _⟩ => ⟨S200000x512, .f32⟩
  | .hbm, ⟨38, _⟩ => ⟨S200000x128, .f32⟩
  | .hbm, ⟨39, _⟩ => ⟨S200000x512, .f32⟩
  | .hbm, ⟨40, _⟩ => ⟨S_, .f32⟩
  | .hbm, ⟨41, _⟩ => ⟨S50000x512, .f32⟩
  | .hbm, ⟨42, _⟩ => ⟨S200000x1, .i32⟩
  | .hbm, ⟨43, _⟩ => ⟨S50000x512, .f32⟩
  | .hbm, ⟨44, _⟩ => ⟨S_, .f32⟩
  | .hbm, ⟨45, _⟩ => ⟨S50000x512, .f32⟩
  | .hbm, ⟨46, _⟩ => ⟨S200000x1, .i32⟩
  | .hbm, ⟨47, _⟩ => ⟨S50000x512, .f32⟩
  | .hbm, ⟨48, _⟩ => ⟨S50000x512, .f32⟩
  | .hbm, ⟨49, _⟩ => ⟨S_, .f32⟩
  | .hbm, ⟨50, _⟩ => ⟨S200000, .f32⟩
  | .hbm, ⟨51, _⟩ => ⟨S_, .f32⟩
  | .hbm, ⟨52, _⟩ => ⟨S50000, .f32⟩
  | .hbm, ⟨53, _⟩ => ⟨S200000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S200000x1, .i32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S512x512, .bf16⟩
  | .hbm, ⟨62, _⟩ => ⟨S512x128, .bf16⟩
  | .hbm, ⟨63, _⟩ => ⟨S50000x128, .f32⟩
  | .local _ .vmem, ⟨0, _⟩ => ⟨S1600x128, .bf16⟩
  | .local _ .vmem, ⟨1, _⟩ => ⟨S1600x128, .bf16⟩
  | .local _ .vmem, ⟨2, _⟩ => ⟨S1600x128, .bf16⟩
  | .local _ .vmem, ⟨3, _⟩ => ⟨S1600x128, .bf16⟩
  | .local _ .vmem, ⟨4, _⟩ => ⟨S1600x128, .bf16⟩
  | .local _ .vmem, ⟨5, _⟩ => ⟨S1600x128, .bf16⟩
  | .local _ .vmem, ⟨6, _⟩ => ⟨S384x512, .bf16⟩
  | .local _ .vmem, ⟨7, _⟩ => ⟨S512, .f32⟩
  | .local _ .vmem, ⟨8, _⟩ => ⟨S512x1152, .bf16⟩
  | .local _ .vmem, ⟨9, _⟩ => ⟨S1152, .f32⟩
  | .local _ .vmem, ⟨10, _⟩ => ⟨S1600x512, .f32⟩
  | .local _ .vmem, ⟨11, _⟩ => ⟨S1600x512, .f32⟩
  | .local _ .vmem, ⟨12, _⟩ => ⟨S1600x128, .f32⟩
  | .local _ .vmem, ⟨13, _⟩ => ⟨S1600x128, .f32⟩
  | .local _ .vmem, ⟨14, _⟩ => ⟨S1600x512, .f32⟩
  | .local _ .vmem, ⟨15, _⟩ => ⟨S1600x512, .f32⟩
  | .local _ .vmem, ⟨16, _⟩ => ⟨S2000x512, .f32⟩
  | .local _ .vmem, ⟨17, _⟩ => ⟨S2000x512, .f32⟩
  | .local _ .vmem, ⟨18, _⟩ => ⟨S2000x1, .f32⟩
  | .local _ .vmem, ⟨19, _⟩ => ⟨S2000x1, .f32⟩
  | .local _ .vmem, ⟨20, _⟩ => ⟨S512x512, .bf16⟩
  | .local _ .vmem, ⟨21, _⟩ => ⟨S512, .f32⟩
  | .local _ .vmem, ⟨22, _⟩ => ⟨S512x128, .bf16⟩
  | .local _ .vmem, ⟨23, _⟩ => ⟨S128, .f32⟩
  | .local _ .vmem, ⟨24, _⟩ => ⟨S2000x128, .f32⟩
  | .local _ .vmem, ⟨25, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1600x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1600x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1600x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bitsLt_bf16_f32 : FTy.bits .bf16 < FTy.bits .f32
  bcast_S_S200000 : S_.BroadcastsInDim S200000 (![] : Fin 0 → Fin S200000.rank)
  bcast_S200000_S200000x1_0 : S200000.BroadcastsInDim S200000x1 (![0] : Fin 1 → Fin S200000x1.rank)
  inb_S384x512_S128x512_0_0 : ∀ a, (![0, 0] : Fin 2 → Nat) a + S128x512.size a ≤ S384x512.size a
  h_S128x512 : 0 < S128x512.numel
  shapeCasts_S128x512_S128x512 : S128x512.ShapeCasts S128x512
  inb_S384x512_S128x512_128_0 : ∀ a, (![128, 0] : Fin 2 → Nat) a + S128x512.size a ≤ S384x512.size a
  inb_S384x512_S128x512_256_0 : ∀ a, (![256, 0] : Fin 2 → Nat) a + S128x512.size a ≤ S384x512.size a
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  inb_S512_S512_0 : ∀ a, (![0] : Fin 1 → Nat) a + S512.size a ≤ S512.size a
  h_S512 : 0 < S512.numel
  shapeCasts_S512_S1x512 : S512.ShapeCasts S1x512
  broadcasts_S1x512_S1600x512 : S1x512.Broadcasts S1600x512
  inb_S512x1152_S512x1152_0_0 : ∀ a, (![0, 0] : Fin 2 → Nat) a + S512x1152.size a ≤ S512x1152.size a
  h_S512x1152 : 0 < S512x1152.numel
  shapeCasts_S512x1152_S512x1152 : S512x1152.ShapeCasts S512x1152
  inb_S1152_S1152_0 : ∀ a, (![0] : Fin 1 → Nat) a + S1152.size a ≤ S1152.size a
  h_S1152 : 0 < S1152.numel
  shapeCasts_S1152_S1x1152 : S1152.ShapeCasts S1x1152
  broadcasts_S1x1152_S1600x1152 : S1x1152.Broadcasts S1600x1152
  slices_S1600x1152_o0_0_S1600x512 : S1600x1152.Slices ![0, 0] S1600x512
  inb_S1600x512_S1600x512_0_0 : ∀ a, (![0, 0] : Fin 2 → Nat) a + S1600x512.size a ≤ S1600x512.size a
  h_S1600x512 : 0 < S1600x512.numel
  slices_S1600x1152_o0_512_S1600x128 : S1600x1152.Slices ![0, 512] S1600x128
  slices_S1600x1152_o0_640_S1600x512 : S1600x1152.Slices ![0, 640] S1600x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  broadcasts_S2000x1_S2000x512 : S2000x1.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x128_S200000x1_S200000x128_1_0_n_n_0_1_1128_wf : GatherDims.WF S50000x128 S200000x1 S200000x128 [1] [0] [] [0] [] 1 ![1, 128]
  dot_S1600x128_S128x512_S1600x512_1_0_0_1_n_n_wf : DotDims.WF S1600x128 S128x512 S1600x512 [1] [0] [0] [1] [] []
  dot_S1600x512_S512x1152_S1600x1152_1_0_0_1_n_n_wf : DotDims.WF S1600x512 S512x1152 S1600x1152 [1] [0] [0] [1] [] []
  scatter_S50000x512_S200000x1_S200000x512_1_0_0_1_wf : ScatterDims.WF S50000x512 S200000x1 S200000x512 [1] [0] [0] 1
  scatter_S50000_S200000x1_S200000_n_0_0_1_wf : ScatterDims.WF S50000 S200000x1 S200000 [] [0] [0] 1
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x128.size a ≤ S200000x128.size a
  hwx0_0 : ∀ i : grid0.Coords, EltTy.bits .bf16 = 32 ∨ (Rect.block (s := S200000x128) S1600x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x128.size a ≤ S200000x128.size a
  hwx0_1 : ∀ i : grid0.Coords, EltTy.bits .bf16 = 32 ∨ (Rect.block (s := S200000x128) S1600x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x128.size a ≤ S200000x128.size a
  hwx0_2 : ∀ i : grid0.Coords, EltTy.bits .bf16 = 32 ∨ (Rect.block (s := S200000x128) S1600x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x512.size a ≤ S384x512.size a
  hwx0_3 : ∀ i : grid0.Coords, EltTy.bits .bf16 = 32 ∨ (Rect.block (s := S384x512) S384x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1152.size a ≤ S512x1152.size a
  hwx0_5 : ∀ i : grid0.Coords, EltTy.bits .bf16 = 32 ∨ (Rect.block (s := S512x1152) S512x1152.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1152.size a ≤ S1152.size a
  hwx0_6 : ∀ i : grid0.Coords, EltTy.bits .f32 = 32 ∨ (Rect.block (s := S1152) S1152.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1600x512.size a ≤ S200000x512.size a
  hwx0_7 : ∀ i : grid0.Coords, EltTy.bits .f32 = 32 ∨ (Rect.block (s := S200000x512) S1600x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1600x128.size a ≤ S200000x128.size a
  hwx0_8 : ∀ i : grid0.Coords, EltTy.bits .f32 = 32 ∨ (Rect.block (s := S200000x128) S1600x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1600x512.size a ≤ S200000x512.size a
  hwx0_9 : ∀ i : grid0.Coords, EltTy.bits .f32 = 32 ∨ (Rect.block (s := S200000x512) S1600x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .bf16 = 32 ∨ (Rect.block (s := S512x128) S512x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S1600x128_S128x512_S1600x512_1_0_0_1_n_n : DotDims S1600x128 S128x512 S1600x512 where
  lhsContracting := [1]
  rhsContracting := [0]
  lhsNonContracting := [0]
  rhsNonContracting := [1]
  lhsBatch := []
  rhsBatch := []
  wf := dot_S1600x128_S128x512_S1600x512_1_0_0_1_n_n_wf
def dot_S1600x512_S512x1152_S1600x1152_1_0_0_1_n_n : DotDims S1600x512 S512x1152 S1600x1152 where
  lhsContracting := [1]
  rhsContracting := [0]
  lhsNonContracting := [0]
  rhsNonContracting := [1]
  lhsBatch := []
  rhsBatch := []
  wf := dot_S1600x512_S512x1152_S1600x1152_1_0_0_1_n_n_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v12) S1600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1600x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S384x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S512x1152.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1152.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22_0) S1600x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v22_1) S1600x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v22_2) S1600x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v29) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S200000x128 : Shape := ⟨2, ![200000, 128]⟩
abbrev S200000x2 : Shape := ⟨2, ![200000, 2]⟩
abbrev S384x512 : Shape := ⟨2, ![384, 512]⟩
abbrev S512 : Shape := ⟨1, ![512]⟩
abbrev S512x1152 : Shape := ⟨2, ![512, 1152]⟩
abbrev S1152 : Shape := ⟨1, ![1152]⟩
abbrev S512x512 : Shape := ⟨2, ![512, 512]⟩
abbrev S512x128 : Shape := ⟨2, ![512, 128]⟩
abbrev S128 : Shape := ⟨1, ![128]⟩
abbrev S200000x1 : Shape := ⟨2, ![200000, 1]⟩
abbrev S200000 : Shape := ⟨1, ![200000]⟩
abbrev S_ : Shape := ⟨0, ![]⟩
abbrev S200000x384 : Shape := ⟨2, ![200000, 384]⟩
abbrev S200000x512 : Shape := ⟨2, ![200000, 512]⟩
abbrev S1x512 : Shape := ⟨2, ![1, 512]⟩
abbrev S200000x1152 : Shape := ⟨2, ![200000, 1152]⟩
abbrev S1x1152 : Shape := ⟨2, ![1, 1152]⟩
abbrev S50000x512 : Shape := ⟨2, ![50000, 512]⟩
abbrev S50000 : Shape := ⟨1, ![50000]⟩
abbrev S50000x1 : Shape := ⟨2, ![50000, 1]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S200000x2, .i32⟩
  | .hbm, ⟨3, _⟩ => ⟨S384x512, .f32⟩
  | .hbm, ⟨4, _⟩ => ⟨S512, .f32⟩
  | .hbm, ⟨5, _⟩ => ⟨S512x1152, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x128, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x128, .f32⟩
  | .hbm, ⟨33, _⟩ => ⟨S200000x384, .f32⟩
  | .hbm, ⟨34, _⟩ => ⟨S200000x512, .f32⟩
  | .hbm, ⟨35, _⟩ => ⟨S1x512, .f32⟩
  | .hbm, ⟨36, _⟩ => ⟨S200000x512, .f32⟩
  | .hbm, ⟨37, _⟩ => ⟨S200000x512, .f32⟩
  | .hbm, ⟨38, _⟩ => ⟨S_, .f32⟩
  | .hbm, ⟨39, _⟩ => ⟨S200000x512, .f32⟩
  | .hbm, ⟨40, _⟩ => ⟨S200000x512, .f32⟩
  | .hbm, ⟨41, _⟩ => ⟨S200000x1152, .f32⟩
  | .hbm, ⟨42, _⟩ => ⟨S1x1152, .f32⟩
  | .hbm, ⟨43, _⟩ => ⟨S200000x1152, .f32⟩
  | .hbm, ⟨44, _⟩ => ⟨S200000x1152, .f32⟩
  | .hbm, ⟨45, _⟩ => ⟨S_, .f32⟩
  | .hbm, ⟨46, _⟩ => ⟨S200000x1152, .f32⟩
  | .hbm, ⟨47, _⟩ => ⟨S200000x1152, .f32⟩
  | .hbm, ⟨48, _⟩ => ⟨S200000x512, .f32⟩
  | .hbm, ⟨49, _⟩ => ⟨S200000x128, .f32⟩
  | .hbm, ⟨50, _⟩ => ⟨S200000x512, .f32⟩
  | .hbm, ⟨51, _⟩ => ⟨S_, .f32⟩
  | .hbm, ⟨52, _⟩ => ⟨S50000x512, .f32⟩
  | .hbm, ⟨53, _⟩ => ⟨S200000x1, .i32⟩
  | .hbm, ⟨54, _⟩ => ⟨S50000x512, .f32⟩
  | .hbm, ⟨55, _⟩ => ⟨S_, .f32⟩
  | .hbm, ⟨56, _⟩ => ⟨S50000x512, .f32⟩
  | .hbm, ⟨57, _⟩ => ⟨S200000x1, .i32⟩
  | .hbm, ⟨58, _⟩ => ⟨S50000x512, .f32⟩
  | .hbm, ⟨59, _⟩ => ⟨S50000x512, .f32⟩
  | .hbm, ⟨60, _⟩ => ⟨S_, .f32⟩
  | .hbm, ⟨61, _⟩ => ⟨S200000, .f32⟩
  | .hbm, ⟨62, _⟩ => ⟨S_, .f32⟩
  | .hbm, ⟨63, _⟩ => ⟨S50000, .f32⟩
  | .hbm, ⟨64, _⟩ => ⟨S200000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S200000x1, .i32⟩
  | .hbm, ⟨69, _⟩ => ⟨S50000, .f32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x512, .f32⟩
  | .hbm, ⟨76, _⟩ => ⟨S50000x512, .f32⟩
  | .hbm, ⟨77, _⟩ => ⟨S50000x512, .f32⟩
  | .hbm, ⟨78, _⟩ => ⟨S1x512, .f32⟩
  | .hbm, ⟨79, _⟩ => ⟨S50000x512, .f32⟩
  | .hbm, ⟨80, _⟩ => ⟨S50000x512, .f32⟩
  | .hbm, ⟨81, _⟩ => ⟨S_, .f32⟩
  | .hbm, ⟨82, _⟩ => ⟨S50000x512, .f32⟩
  | .hbm, ⟨83, _⟩ => ⟨S50000x512, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call2_cst : Ref sig .tc := ⟨.hbm, 81, rfl⟩
abbrev main_call2_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call3_cst : Ref sig .tc := ⟨.hbm, 88, rfl⟩
abbrev main_call3_v0 : Ref sig .tc := ⟨.hbm, 89, rfl⟩
abbrev main_v61 : Ref sig .tc := ⟨.hbm, 90, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  bcast_S1152_S1x1152_1 : S1152.BroadcastsInDim S1x1152 (![1] : Fin 1 → Fin S1x1152.rank)
  bcast_S1x1152_S200000x1152_0_1 : S1x1152.BroadcastsInDim S200000x1152 (![0, 1] : Fin 2 → Fin S200000x1152.rank)
  bcast_S_S200000x1152 : S_.BroadcastsInDim S200000x1152 (![] : Fin 0 → Fin S200000x1152.rank)
  slices_S200000x1152_S200000x512_0_0 : S200000x1152.Slices ![0, 0] S200000x512
  slices_S200000x1152_S200000x128_0_512 : S200000x1152.Slices ![0, 512] S200000x128
  slices_S200000x1152_S200000x512_0_640 : S200000x1152.Slices ![0, 640] S200000x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S1x512_S50000x512_0_1 : S1x512.BroadcastsInDim S50000x512 (![0, 1] : Fin 2 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x128_S200000x1_S200000x128_1_0_n_n_0_1_1128_wf : GatherDims.WF S50000x128 S200000x1 S200000x128 [1] [0] [] [0] [] 1 ![1, 128]
  dot_S200000x384_S384x512_S200000x512_1_0_0_1_n_n_wf : DotDims.WF S200000x384 S384x512 S200000x512 [1] [0] [0] [1] [] []
  dot_S200000x512_S512x1152_S200000x1152_1_0_0_1_n_n_wf : DotDims.WF S200000x512 S512x1152 S200000x1152 [1] [0] [0] [1] [] []
  scatter_S50000x512_S200000x1_S200000x512_1_0_0_1_wf : ScatterDims.WF S50000x512 S200000x1 S200000x512 [1] [0] [0] 1
  scatter_S50000_S200000x1_S200000_n_0_0_1_wf : ScatterDims.WF S50000 S200000x1 S200000 [] [0] [0] 1
  dot_S50000x512_S512x512_S50000x512_1_0_0_1_n_n_wf : DotDims.WF S50000x512 S512x512 S50000x512 [1] [0] [0] [1] [] []
  dot_S50000x512_S512x128_S50000x128_1_0_0_1_n_n_wf : DotDims.WF S50000x512 S512x128 S50000x128 [1] [0] [0] [1] [] []

variable [Facts₀]

def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x384_S384x512_S200000x512_1_0_0_1_n_n : DotDims S200000x384 S384x512 S200000x512 where
  lhsContracting := [1]
  rhsContracting := [0]
  lhsNonContracting := [0]
  rhsNonContracting := [1]
  lhsBatch := []
  rhsBatch := []
  wf := dot_S200000x384_S384x512_S200000x512_1_0_0_1_n_n_wf
def dot_S200000x512_S512x1152_S200000x1152_1_0_0_1_n_n : DotDims S200000x512 S512x1152 S200000x1152 where
  lhsContracting := [1]
  rhsContracting := [0]
  lhsNonContracting := [0]
  rhsNonContracting := [1]
  lhsBatch := []
  rhsBatch := []
  wf := dot_S200000x512_S512x1152_S200000x1152_1_0_0_1_n_n_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.EndState.lean ====
/-
  The idealized kernel program, run from any launch memory, ends with every buffer that outlives a region at the
  contents obtained by folding the program's four stretches over the launch memory: the host operations before the
  first region, the first region's write-backs (each output array the union of what the grid points flushed), the host
  operations between the regions, and the second region's write-backs.  The frame certificate reads only the argument
  arrays out of that final valuation; here the whole valuation is kept, so that the two result arrays can be read too.
-/
import proofs.«163111_j10668698763869_2_alg».proof.Proof.Gen.KernelIdeal.Frame

set_option maxRecDepth 16384

noncomputable section

namespace Cert.KernelIdeal.EndState

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and in the final memory every buffer that is not scoped to
    a region holds the folded contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.EndState

end
-- ==== Proof.Formulas.lean ====
/-
  The mathematics both programs compute, over the extended reals, written once.

  A dense layer followed by a rectifier, at output unit j:  max (∑ₖ x(k) · W(k, j) + b(j), 0).
  The message network is two such layers on the concatenation of a subject row, a predicate row and an object row
  (each of 128 entries, the concatenation of 384); its first layer may be computed in one sum over the 384 entries, or
  as the sum of three partial products against the three bands of 128 rows of the weight matrix: both are the same
  number, because a finite sum over 384 = 128 + 128 + 128 indices is the sum of its three consecutive thirds — only
  associativity of addition, so no entry needs to be finite.
  The object network is two dense layers on the pooled row divided, entry by entry, by max(count, 1).
-/
import Idealize.ShloMosaic.PureOps.Ideal
import Idealize.ShloMosaic.Lib.ValueIdx

noncomputable section

namespace Cert.Formulas

open Idealize.ShloMosaic Idealize.ShloMosaic.ValueIdx

/-- The word of the float 0.0 and of 1.0, as the programs spell them (never evaluated: both sides carry the same word). -/
abbrev zeroW : EReal := Ideal.ofBits .f32 0x00000000#32
abbrev oneW : EReal := Ideal.ofBits .f32 0x3F800000#32

/-- A dense layer with rectifier at output unit `j`: max (∑ₖ x(k) · W(k, j) + b(j), 0). -/
def dense {K N : Nat} (x : Fin K → EReal) (W : (⟨2, ![K, N]⟩ : Shape).Idx → EReal) (b : (⟨1, ![N]⟩ : Shape).Idx → EReal)
    (j : Fin N) : EReal :=
  max ((∑ k : Fin K, x k * W (ix2 k j)) + b (ix1 j)) zeroW

/-- A finite sum over 3 n indices is the sum of its three consecutive thirds. -/
theorem sum_thirds {M : Type*} [AddCommMonoid M] (n : Nat) (f : Fin (n + n + n) → M) :
    ∑ k, f k = ((∑ l : Fin n, f ⟨l.val, by have := l.isLt; omega⟩) + ∑ l : Fin n, f ⟨n + l.val, by have := l.isLt; omega⟩)
      + ∑ l : Fin n, f ⟨n + n + l.val, by have := l.isLt; omega⟩ := by
  rw [Fin.sum_univ_add, Fin.sum_univ_add]
  rfl

/-- The first layer of the message network at hidden unit `k`, from the three rows, as three partial products against the
    three bands of the weight matrix. -/
def hidden3 (s p o : Fin 128 → EReal) (W : (⟨2, ![384, 512]⟩ : Shape).Idx → EReal) (b : (⟨1, ![512]⟩ : Shape).Idx → EReal)
    (k : Fin 512) : EReal :=
  max (((((∑ l : Fin 128, s l * W (ix2 ⟨l.val, by have := l.isLt; omega⟩ k))
      + ∑ l : Fin 128, p l * W (ix2 ⟨128 + l.val, by have := l.isLt; omega⟩ k))
      + ∑ l : Fin 128, o l * W (ix2 ⟨256 + l.val, by have := l.isLt; omega⟩ k))) + b (ix1 k)) zeroW

/-- One dense layer over a row of 384 entries is the three-band form over its three thirds. -/
theorem dense_eq_hidden3 (x : Fin 384 → EReal) (W : (⟨2, ![384, 512]⟩ : Shape).Idx → EReal) (b : (⟨1, ![512]⟩ : Shape).Idx → EReal)
    (k : Fin 512) :
    dense x W b k = hidden3 (fun l => x ⟨l.val, by have := l.isLt; omega⟩) (fun l => x ⟨128 + l.val, by have := l.isLt; omega⟩)
      (fun l => x ⟨256 + l.val, by have := l.isLt; omega⟩) W b k := by
  unfold dense hidden3
  have h := sum_thirds 128 (fun q : Fin (128 + 128 + 128) => x ⟨q.val, q.isLt⟩ * W (ix2 ⟨q.val, q.isLt⟩ k))
  exact congrArg (fun z => max (z + b (ix1 k)) zeroW) h

/-- The message network at output unit `j` from a subject row, a predicate row and an object row. -/
def net1 (s p o : Fin 128 → EReal) (W1a : (⟨2, ![384, 512]⟩ : Shape).Idx → EReal) (b1a : (⟨1, ![512]⟩ : Shape).Idx → EReal)
    (W1b : (⟨2, ![512, 1152]⟩ : Shape).Idx → EReal) (b1b : (⟨1, ![1152]⟩ : Shape).Idx → EReal) (j : Fin 1152) : EReal :=
  dense (fun k => hidden3 s p o W1a b1a k) W1b b1b j

/-- The object network at output unit `q` from a pooled row and its count. -/
def net2 (pooled : Fin 512 → EReal) (count : EReal) (W2a : (⟨2, ![512, 512]⟩ : Shape).Idx → EReal) (b2a : (⟨1, ![512]⟩ : Shape).Idx → EReal)
    (W2b : (⟨2, ![512, 128]⟩ : Shape).Idx → EReal) (b2b : (⟨1, ![128]⟩ : Shape).Idx → EReal) (q : Fin 128) : EReal :=
  dense (fun k => dense (fun l => Ideal.div (pooled l) (max count oneW)) W2a b2a k) W2b b2b q

end Cert.Formulas

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.Net1Entry.lean ====
/-
  The message kernel's body, read at an entry.

  At a grid point the body holds 1600 subject rows, predicate rows and object rows (blocks of the three gathered
  arrays), the whole weight matrices and biases.  Row p of what it computes — before the three column slices are
  stored — is the message network of row p of the three blocks: the first layer as three partial products against the
  three bands of 128 rows of the first weight matrix, each product the textbook sum over its 128 entries, the bias
  added and the rectifier applied; then the second layer.  The three stores take columns 0…511, 512…639 and 640…1151
  of that row.
-/
import proofs.«163111_j10668698763869_2_alg».proof.Proof.Gen.KernelIdeal.Frame
import proofs.«163111_j10668698763869_2_alg».proof.Proof.Formulas
import proofs.«163111_j10668698763869_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Net1Entry

open Idealize.ShloMosaic Idealize.ShloMosaic.ValueIdx Cert.KernelIdeal Cert.KernelIdeal.Gen Cert.Formulas

/-- The rectified first layer as the body computes it from its loaded blocks, as one vector. -/
def hidVec (W0 W1 W2 : Vec Ideal S128x512 .bf16) (S P O : Vec Ideal S1600x128 .bf16) (b1 : Vec Ideal S512 .f32) :
    FVec Ideal S1600x512 .f32 :=
  maximumf (addf (addf (addf
      (matmul dot_S1600x128_S128x512_S1600x512_1_0_0_1_n_n none (shapeCast S1600x128 S shapeCasts_S1600x128_S1600x128 : FVec Ideal S1600x128 .bf16)
        (shapeCast S128x512 W0 shapeCasts_S128x512_S128x512 : FVec Ideal S128x512 .bf16) (constant (F := Ideal) S1600x512 .f32 0x00000000#32))
      (matmul dot_S1600x128_S128x512_S1600x512_1_0_0_1_n_n none (shapeCast S1600x128 P shapeCasts_S1600x128_S1600x128 : FVec Ideal S1600x128 .bf16)
        (shapeCast S128x512 W1 shapeCasts_S128x512_S128x512 : FVec Ideal S128x512 .bf16) (constant (F := Ideal) S1600x512 .f32 0x00000000#32)))
      (matmul dot_S1600x128_S128x512_S1600x512_1_0_0_1_n_n none (shapeCast S1600x128 O shapeCasts_S1600x128_S1600x128 : FVec Ideal S1600x128 .bf16)
        (shapeCast S128x512 W2 shapeCasts_S128x512_S128x512 : FVec Ideal S128x512 .bf16) (constant (F := Ideal) S1600x512 .f32 0x00000000#32)))
      (broadcastTo S1600x512 (shapeCast S1x512 b1 shapeCasts_S512_S1x512) broadcasts_S1x512_S1600x512))
    (broadcast S1600x512 (Scalar.ofBits (F := Ideal) .f32 0x00000000#32))

theorem dims1 : dot_S1600x128_S128x512_S1600x512_1_0_0_1_n_n
    = Cert.LibPlainDot.dims Facts₀.dot_S1600x128_S128x512_S1600x512_1_0_0_1_n_n_wf := rfl

theorem dims2 : dot_S1600x512_S512x1152_S1600x1152_1_0_0_1_n_n
    = Cert.LibPlainDot.dims Facts₀.dot_S1600x512_S512x1152_S1600x1152_1_0_0_1_n_n_wf := rfl

/-- Entry (p, k) of the rectified first layer: the three partial sums, the bias, the rectifier. -/
theorem hidVec_apply (W0 W1 W2 : Vec Ideal S128x512 .bf16) (S P O : Vec Ideal S1600x128 .bf16) (b1 : Vec Ideal S512 .f32)
    (p : Fin 1600) (k : Fin 512) :
    hidVec W0 W1 W2 S P O b1 (ix2 p k)
      = max (((((∑ l : Fin 128, S (ix2 p l) * W0 (ix2 l k)) + ∑ l : Fin 128, P (ix2 p l) * W1 (ix2 l k))
          + ∑ l : Fin 128, O (ix2 p l) * W2 (ix2 l k))) + b1 (ix1 k)) zeroW := by
  unfold hidVec
  simp only [shapeCast_self]
  rw [maximumf_apply, addf_apply, addf_apply, addf_apply, broadcast_apply, dims1]
  simp only [matmul]
  rw [Cert.LibPlainDot.matmul_zero_apply, Cert.LibPlainDot.matmul_zero_apply, Cert.LibPlainDot.matmul_zero_apply,
    broadcastTo_1b_ab_apply, shapeCast_a_1a_apply]
  rfl

/-- The body's value before the column slices, entry (p, j): the second layer over the rectified first. -/
theorem pay3_apply (W0 W1 W2 : Vec Ideal S128x512 .bf16) (S P O : Vec Ideal S1600x128 .bf16) (b1 : Vec Ideal S512 .f32)
    (Wb : Vec Ideal S512x1152 .bf16) (b2 : Vec Ideal S1152 .f32) (p : Fin 1600) (j : Fin 1152) :
    k0_pay3 (F := Ideal) W0 W1 W2 S P O b1 Wb b2 (ix2 p j)
      = dense (fun k => max (((((∑ l : Fin 128, S (ix2 p l) * W0 (ix2 l k)) + ∑ l : Fin 128, P (ix2 p l) * W1 (ix2 l k))
          + ∑ l : Fin 128, O (ix2 p l) * W2 (ix2 l k))) + b1 (ix1 k)) zeroW) Wb b2 j := by
  have h : k0_pay3 (F := Ideal) W0 W1 W2 S P O b1 Wb b2
      = maximumf (addf (matmul dot_S1600x512_S512x1152_S1600x1152_1_0_0_1_n_n none
            (truncf .bf16 (hidVec W0 W1 W2 S P O b1) bitsLt_bf16_f32)
            (shapeCast S512x1152 Wb shapeCasts_S512x1152_S512x1152 : FVec Ideal S512x1152 .bf16) (constant (F := Ideal) S1600x1152 .f32 0x00000000#32))
          (broadcastTo S1600x1152 (shapeCast S1x1152 b2 shapeCasts_S1152_S1x1152) broadcasts_S1x1152_S1600x1152))
        (broadcast S1600x1152 (Scalar.ofBits (F := Ideal) .f32 0x00000000#32)) := rfl
  rw [h]
  simp only [shapeCast_self]
  rw [maximumf_apply, addf_apply, broadcast_apply, dims2]
  simp only [matmul]
  rw [Cert.LibPlainDot.matmul_zero_apply, broadcastTo_1b_ab_apply, shapeCast_a_1a_apply]
  unfold dense
  refine congrArg (fun z => max (z + b2 (ix1 j)) zeroW) (Finset.sum_congr rfl fun k _ => ?_)
  rw [truncf_apply, hidVec_apply]

theorem hz : (![0, 0] : Fin 2 → Nat) = fun _ => 0 := funext fun a => by fin_cases a <;> rfl
theorem hz1 : (![0] : Fin 1 → Nat) = fun _ => 0 := funext fun a => by fin_cases a; rfl

/-- A band of 128 rows of the staged first weight matrix, loaded from row `o`, read at (l, k): row o + l. -/
theorem ld_band (x3 : Vec Ideal S384x512 .bf16) (o : Nat) (inb : ∀ a, (![o, 0] : Fin 2 → Nat) a + S128x512.size a ≤ S384x512.size a)
    (l : Fin 128) (k : Fin 512) (r : Fin 384) (hr : r.val = o + l.val) :
    View.ld x3 (Rect.unit (s := S384x512) ![o, 0] S128x512.size inb) (ix2 l k) = x3 (ix2 r k) := by
  show x3 ((Rect.unit (s := S384x512) ![o, 0] S128x512.size inb).idx (ix2 l k)) = _
  refine congrArg x3 (funext fun a => Fin.ext ?_)
  match a with
  | ⟨0, _⟩ => show o + 1 * l.val = r.val; omega
  | ⟨1, _⟩ => show 0 + 1 * k.val = k.val; omega

/-- The body's value before the column slices, from the staged blocks: row p is the message network of row p. -/
theorem pay3_blocks (x0 x1 x2 : Vec Ideal S1600x128 .bf16) (x3 : Vec Ideal S384x512 .bf16) (x4 : Vec Ideal S512 .f32)
    (x5 : Vec Ideal S512x1152 .bf16) (x6 : Vec Ideal S1152 .f32) (p : Fin 1600) (j : Fin 1152) :
    k0_pay3 (F := Ideal) (View.ld x3 r0_0) (View.ld x3 r0_1) (View.ld x3 r0_2) (View.ld x0 r0_3) (View.ld x1 r0_3) (View.ld x2 r0_3)
        (View.ld x4 r0_4) (View.ld x5 r0_5) (View.ld x6 r0_6) (ix2 p j)
      = net1 (fun l => x0 (ix2 p l)) (fun l => x1 (ix2 p l)) (fun l => x2 (ix2 p l)) x3 x4 x5 x6 j := by
  simp only [View.ld_unit_zero (S := S1600x128) hz, View.ld_unit_zero (S := S512x1152) hz, View.ld_unit_zero (S := S512) hz1,
    View.ld_unit_zero (S := S1152) hz1]
  rw [pay3_apply]
  unfold net1
  refine congrArg (fun f => dense f x5 x6 j) (funext fun k => ?_)
  unfold hidden3
  have h0 : ∀ l : Fin 128, View.ld x3 r0_0 (ix2 l k) = x3 (ix2 ⟨l.val, by have := l.isLt; omega⟩ k) :=
    fun l => ld_band x3 0 _ l k _ (by show l.val = 0 + l.val; omega)
  have h1 : ∀ l : Fin 128, View.ld x3 r0_1 (ix2 l k) = x3 (ix2 ⟨128 + l.val, by have := l.isLt; omega⟩ k) :=
    fun l => ld_band x3 128 _ l k _ rfl
  have h2 : ∀ l : Fin 128, View.ld x3 r0_2 (ix2 l k) = x3 (ix2 ⟨256 + l.val, by have := l.isLt; omega⟩ k) :=
    fun l => ld_band x3 256 _ l k _ rfl
  simp only [h0, h1, h2]

/-- The first store (columns 0…511), entry (p, q). -/
theorem out7_apply (x0 x1 x2 : Vec Ideal S1600x128 .bf16) (x3 : Vec Ideal S384x512 .bf16) (x4 : Vec Ideal S512 .f32)
    (x5 : Vec Ideal S512x1152 .bf16) (x6 : Vec Ideal S1152 .f32) (p : Fin 1600) (q : Fin 512) (j : Fin 1152) (hj : j.val = 0 + q.val) :
    out0_7 (F := Ideal) x0 x1 x2 x3 x4 x5 x6 (ix2 p q)
      = net1 (fun l => x0 (ix2 p l)) (fun l => x1 (ix2 p l)) (fun l => x2 (ix2 p l)) x3 x4 x5 x6 j := by
  unfold out0_7
  rw [View.canon_unit_zero hz]
  unfold k0_pay4
  rw [slice2_axis1_apply 0 _ _ p q j hj, pay3_blocks]

/-- The second store (columns 512…639), entry (p, q). -/
theorem out8_apply (x0 x1 x2 : Vec Ideal S1600x128 .bf16) (x3 : Vec Ideal S384x512 .bf16) (x4 : Vec Ideal S512 .f32)
    (x5 : Vec Ideal S512x1152 .bf16) (x6 : Vec Ideal S1152 .f32) (p : Fin 1600) (q : Fin 128) (j : Fin 1152) (hj : j.val = 512 + q.val) :
    out0_8 (F := Ideal) x0 x1 x2 x3 x4 x5 x6 (ix2 p q)
      = net1 (fun l => x0 (ix2 p l)) (fun l => x1 (ix2 p l)) (fun l => x2 (ix2 p l)) x3 x4 x5 x6 j := by
  unfold out0_8
  rw [View.canon_unit_zero hz]
  unfold k0_pay1
  rw [slice2_axis1_apply 512 _ _ p q j hj, pay3_blocks]

/-- The third store (columns 640…1151), entry (p, q). -/
theorem out9_apply (x0 x1 x2 : Vec Ideal S1600x128 .bf16) (x3 : Vec Ideal S384x512 .bf16) (x4 : Vec Ideal S512 .f32)
    (x5 : Vec Ideal S512x1152 .bf16) (x6 : Vec Ideal S1152 .f32) (p : Fin 1600) (q : Fin 512) (j : Fin 1152) (hj : j.val = 640 + q.val) :
    out0_9 (F := Ideal) x0 x1 x2 x3 x4 x5 x6 (ix2 p q)
      = net1 (fun l => x0 (ix2 p l)) (fun l => x1 (ix2 p l)) (fun l => x2 (ix2 p l)) x3 x4 x5 x6 j := by
  unfold out0_9
  rw [View.canon_unit_zero hz]
  unfold k0_pay2
  rw [slice2_axis1_apply 640 _ _ p q j hj, pay3_blocks]

end Cert.KernelIdeal.Net1Entry

end
-- ==== Proof.Net1Ref.lean ====
/-
  The reference's message network, read at an entry.

  The reference joins a gathered subject row, a predicate row and a gathered object row into one row of 384 entries,
  multiplies by the whole first weight matrix, adds the bias, rectifies, and applies the second layer; the three column
  slices of the result are the three arrays the pooling consumes.  Entry (r, j) of the result is the message network of
  the three rows r: the one sum over the 384 joined entries is the sum of its three thirds, and the joined row's thirds
  are the three rows.
-/
import proofs.«163111_j10668698763869_2_alg».proof.Proof.Gen.ReferenceIdeal.Read
import proofs.«163111_j10668698763869_2_alg».proof.Proof.Formulas
import Idealize.ShloMosaic.Lib.ValueIdx
import Idealize.ShloMosaic.Lib.Pipeline.Value

set_option maxRecDepth 16384

noncomputable section

namespace Cert.ReferenceIdeal.Net1Ref

open Idealize.ShloMosaic Idealize.ShloMosaic.ValueIdx Cert.ReferenceIdeal Cert.ReferenceIdeal.Read Cert.Formulas

variable (x0 : (⟨S50000x128, .f32⟩ : BufTy).Contents (Elt Ideal)) (x1 : (⟨S200000x128, .f32⟩ : BufTy).Contents (Elt Ideal))
  (x2 : (⟨S200000x2, .i32⟩ : BufTy).Contents (Elt Ideal)) (x3 : (⟨S384x512, .f32⟩ : BufTy).Contents (Elt Ideal))
  (x4 : (⟨S512, .f32⟩ : BufTy).Contents (Elt Ideal)) (x5 : (⟨S512x1152, .f32⟩ : BufTy).Contents (Elt Ideal))
  (x6 : (⟨S1152, .f32⟩ : BufTy).Contents (Elt Ideal))

/-- The joined row's first third is the gathered subject row. -/
theorem joined_left (r : Fin 200000) (l : Fin 128) (k : Fin 384) (hk : k.val = l.val) :
    val_main_v18 (F := Ideal) x0 x1 x2 (ix2 r k) = val_main_v10 (F := Ideal) x0 x2 (ix2 r l) := by
  unfold val_main_v18
  refine concatenate_apply_piece (1 : Fin 2) _ _ (ix2 r k) 0 ?_ S200000x128 _ ?_ rfl 0 ?_ (ix2 r l) (fun b hb => ?_) ?_
  · simp
  · rfl
  · rfl
  · match b with
    | ⟨0, _⟩ => rfl
    | ⟨1, _⟩ => exact absurd rfl hb
  · show 0 + l.val = k.val; omega

/-- Its second third is the predicate row. -/
theorem joined_mid (r : Fin 200000) (l : Fin 128) (k : Fin 384) (hk : k.val = 128 + l.val) :
    val_main_v18 (F := Ideal) x0 x1 x2 (ix2 r k) = x1 (ix2 r l) := by
  unfold val_main_v18
  refine concatenate_apply_piece (1 : Fin 2) _ _ (ix2 r k) 1 ?_ S200000x128 _ ?_ rfl 128 ?_ (ix2 r l) (fun b hb => ?_) ?_
  · simp
  · rfl
  · rfl
  · match b with
    | ⟨0, _⟩ => rfl
    | ⟨1, _⟩ => exact absurd rfl hb
  · show 128 + l.val = k.val; omega

/-- Its last third is the gathered object row. -/
theorem joined_right (r : Fin 200000) (l : Fin 128) (k : Fin 384) (hk : k.val = 256 + l.val) :
    val_main_v18 (F := Ideal) x0 x1 x2 (ix2 r k) = val_main_v17 (F := Ideal) x0 x2 (ix2 r l) := by
  unfold val_main_v18
  refine concatenate_apply_piece (1 : Fin 2) _ _ (ix2 r k) 2 ?_ S200000x128 _ ?_ rfl 256 ?_ (ix2 r l) (fun b hb => ?_) ?_
  · simp
  · rfl
  · rfl
  · match b with
    | ⟨0, _⟩ => rfl
    | ⟨1, _⟩ => exact absurd rfl hb
  · show 256 + l.val = k.val; omega

/-- The rectified first layer at (r, k): the three-band form over the three rows. -/
theorem hidden_apply (r : Fin 200000) (k : Fin 512) :
    val_main_v23 (F := Ideal) x0 x1 x2 x3 x4 (ix2 r k)
      = hidden3 (fun l => val_main_v10 (F := Ideal) x0 x2 (ix2 r l)) (fun l => x1 (ix2 r l))
          (fun l => val_main_v17 (F := Ideal) x0 x2 (ix2 r l)) x3 x4 k := by
  rw [val_main_v23_apply, val_main_v22_apply, val_main_v19_apply, val_main_v21_apply, val_main_v20_apply,
    val_main_call0_v0_apply, val_main_call0_cst_apply]
  have e1 : ∀ k' : Fin 384, lidx_main_v19 (ix2 r k) k' = ix2 r k' := fun k' => funext fun a => Fin.ext (by
    match a with
    | ⟨0, _⟩ => rfl
    | ⟨1, _⟩ => rfl)
  have e2 : ∀ k' : Fin 384, ridx_main_v19 (ix2 r k) k' = ix2 k' k := fun k' => funext fun a => Fin.ext (by
    match a with
    | ⟨0, _⟩ => rfl
    | ⟨1, _⟩ => rfl)
  have e3 : idx_main_v20 (idx_main_v21 (ix2 r k)) = ix1 k := funext fun a => Fin.ext (by
    match a with
    | ⟨0, _⟩ => rfl)
  simp only [e1, e2, e3]
  refine (dense_eq_hidden3 (fun k' => val_main_v18 (F := Ideal) x0 x1 x2 (ix2 r k')) x3 x4 k).trans ?_
  have a : (fun l : Fin 128 => val_main_v18 (F := Ideal) x0 x1 x2 (ix2 r ⟨l.val, by have := l.isLt; omega⟩))
      = fun l => val_main_v10 (F := Ideal) x0 x2 (ix2 r l) := funext fun l => joined_left x0 x1 x2 r l _ rfl
  have b : (fun l : Fin 128 => val_main_v18 (F := Ideal) x0 x1 x2 (ix2 r ⟨128 + l.val, by have := l.isLt; omega⟩))
      = fun l => x1 (ix2 r l) := funext fun l => joined_mid x0 x1 x2 r l _ rfl
  have c : (fun l : Fin 128 => val_main_v18 (F := Ideal) x0 x1 x2 (ix2 r ⟨256 + l.val, by have := l.isLt; omega⟩))
      = fun l => val_main_v17 (F := Ideal) x0 x2 (ix2 r l) := funext fun l => joined_right x0 x1 x2 r l _ rfl
  rw [a, b, c]

/-- The message network's result at (r, j). -/
theorem result_apply (r : Fin 200000) (j : Fin 1152) :
    val_main_v28 (F := Ideal) x0 x1 x2 x3 x4 x5 x6 (ix2 r j)
      = net1 (fun l => val_main_v10 (F := Ideal) x0 x2 (ix2 r l)) (fun l => x1 (ix2 r l))
          (fun l => val_main_v17 (F := Ideal) x0 x2 (ix2 r l)) x3 x4 x5 x6 j := by
  rw [val_main_v28_apply, val_main_v27_apply, val_main_v24_apply, val_main_v26_apply, val_main_v25_apply,
    val_main_call1_v0_apply, val_main_call1_cst_apply]
  have e1 : ∀ k : Fin 512, lidx_main_v24 (ix2 r j) k = ix2 r k := fun k => funext fun a => Fin.ext (by
    match a with
    | ⟨0, _⟩ => rfl
    | ⟨1, _⟩ => rfl)
  have e2 : ∀ k : Fin 512, ridx_main_v24 (ix2 r j) k = ix2 k j := fun k => funext fun a => Fin.ext (by
    match a with
    | ⟨0, _⟩ => rfl
    | ⟨1, _⟩ => rfl)
  have e3 : idx_main_v25 (idx_main_v26 (ix2 r j)) = ix1 j := funext fun a => Fin.ext (by
    match a with
    | ⟨0, _⟩ => rfl)
  simp only [e1, e2, e3, hidden_apply]
  rfl

/-- The three column slices at (r, q): columns q, 512 + q and 640 + q of the result. -/
theorem slice_s_apply (r : Fin 200000) (q : Fin 512) (j : Fin 1152) (hj : j.val = 0 + q.val) :
    val_main_v29 (F := Ideal) x0 x1 x2 x3 x4 x5 x6 (ix2 r q)
      = net1 (fun l => val_main_v10 (F := Ideal) x0 x2 (ix2 r l)) (fun l => x1 (ix2 r l))
          (fun l => val_main_v17 (F := Ideal) x0 x2 (ix2 r l)) x3 x4 x5 x6 j := by
  rw [val_main_v29_apply, show idx_main_v29 (ix2 r q) = ix2 r j from funext fun a => Fin.ext (by
    match a with
    | ⟨0, _⟩ => rfl
    | ⟨1, _⟩ => show q.val = j.val; omega), result_apply]

theorem slice_p_apply (r : Fin 200000) (q : Fin 128) (j : Fin 1152) (hj : j.val = 512 + q.val) :
    val_main_v30 (F := Ideal) x0 x1 x2 x3 x4 x5 x6 (ix2 r q)
      = net1 (fun l => val_main_v10 (F := Ideal) x0 x2 (ix2 r l)) (fun l => x1 (ix2 r l))
          (fun l => val_main_v17 (F := Ideal) x0 x2 (ix2 r l)) x3 x4 x5 x6 j := by
  rw [val_main_v30_apply, show idx_main_v30 (ix2 r q) = ix2 r j from funext fun a => Fin.ext (by
    match a with
    | ⟨0, _⟩ => rfl
    | ⟨1, _⟩ => show 512 + q.val = j.val; omega), result_apply]

theorem slice_o_apply (r : Fin 200000) (q : Fin 512) (j : Fin 1152) (hj : j.val = 640 + q.val) :
    val_main_v31 (F := Ideal) x0 x1 x2 x3 x4 x5 x6 (ix2 r q)
      = net1 (fun l => val_main_v10 (F := Ideal) x0 x2 (ix2 r l)) (fun l => x1 (ix2 r l))
          (fun l => val_main_v17 (F := Ideal) x0 x2 (ix2 r l)) x3 x4 x5 x6 j := by
  rw [val_main_v31_apply, show idx_main_v31 (ix2 r q) = ix2 r j from funext fun a => Fin.ext (by
    match a with
    | ⟨0, _⟩ => rfl
    | ⟨1, _⟩ => show 640 + q.val = j.val; omega), result_apply]

end Cert.ReferenceIdeal.Net1Ref

end
-- ==== Proof.Net1Blocks.lean ====
/-
  The first region's three output arrays, whole.

  When the first region is entered, the host operations before it have left: the subject rows and the object rows
  gathered from the object table at the (sign-normalized, clamped) first and second column of the index pairs — the very
  gathers the reference makes, the change of float format in front of them being the identity on the extended reals —,
  the predicate rows, and the weights and biases as given.  Grid point t stages rows 1600 t … 1600 t + 1599 of the three
  row arrays and the whole weights, and writes back rows 1600 t … 1600 t + 1599 of the three outputs: by the body's
  formula these are the reference's three column slices of its message network on those rows.  The 125 grid points
  cover all 200000 rows, so the three arrays after the region are the reference's three slices, whole.
-/
import proofs.«163111_j10668698763869_2_alg».proof.Proof.Gen.KernelIdeal.Frame
import proofs.«163111_j10668698763869_2_alg».proof.Proof.Gen.ReferenceIdeal.Read
import proofs.«163111_j10668698763869_2_alg».proof.Proof.Formulas
import proofs.«163111_j10668698763869_2_alg».proof.Proof.Net1Entry
import proofs.«163111_j10668698763869_2_alg».proof.Proof.Net1Ref
import Idealize.ShloMosaic.Lib.StableHlo.Run
import Idealize.ShloMosaic.Lib.Pipeline.Value
import Idealize.ShloMosaic.Lib.ValueIdx

set_option maxRecDepth 16384

noncomputable section

namespace Cert.KernelIdeal.Net1Blocks

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Formulas
open Cert.ReferenceIdeal.Read (val_main_v10 val_main_v17 val_main_v29 val_main_v30 val_main_v31)

variable (m : (ℓ : Loc nD τ sig) → Buf (Elt Ideal) ℓ) (ρ : Dev nD → PrngReg)

/-! ## The arrays the region finds -/

set_option maxHeartbeats 1000000 in
/-- The subject rows: the reference's first gather. -/
theorem entry_s (c : Dev nD) : V1 m ρ c main_v12 = val_main_v10 (F := Ideal) (m ((c : Thread nD τ).loc main_arg0)) (m ((c : Thread nD τ).loc main_arg2)) := by
  show StableHlo.after hostOps0 (W0 m ρ c) (Proc.devRef .tc main_v12) = _
  after_results_simp
  try rfl

set_option maxHeartbeats 1000000 in
/-- The predicate rows. -/
theorem entry_p (c : Dev nD) : V1 m ρ c main_v5 = (m ((c : Thread nD τ).loc main_arg1)) := by
  show StableHlo.after hostOps0 (W0 m ρ c) (Proc.devRef .tc main_v5) = _
  after_results_simp
  try rfl

set_option maxHeartbeats 1000000 in
/-- The object rows: the reference's second gather. -/
theorem entry_o (c : Dev nD) : V1 m ρ c main_v19 = val_main_v17 (F := Ideal) (m ((c : Thread nD τ).loc main_arg0)) (m ((c : Thread nD τ).loc main_arg2)) := by
  show StableHlo.after hostOps0 (W0 m ρ c) (Proc.devRef .tc main_v19) = _
  after_results_simp
  try rfl

set_option maxHeartbeats 1000000 in
/-- The first weight matrix. -/
theorem entry_w1a (c : Dev nD) : V1 m ρ c main_v20 = (m ((c : Thread nD τ).loc main_arg3)) := by
  show StableHlo.after hostOps0 (W0 m ρ c) (Proc.devRef .tc main_v20) = _
  after_results_simp
  try rfl

set_option maxHeartbeats 1000000 in
/-- The first bias. -/
theorem entry_b1a (c : Dev nD) : V1 m ρ c main_arg4 = (m ((c : Thread nD τ).loc main_arg4)) := by
  show StableHlo.after hostOps0 (W0 m ρ c) (Proc.devRef .tc main_arg4) = _
  after_results_simp
  try rfl

set_option maxHeartbeats 1000000 in
/-- The second weight matrix. -/
theorem entry_w1b (c : Dev nD) : V1 m ρ c main_v21 = (m ((c : Thread nD τ).loc main_arg5)) := by
  show StableHlo.after hostOps0 (W0 m ρ c) (Proc.devRef .tc main_v21) = _
  after_results_simp
  try rfl

set_option maxHeartbeats 1000000 in
/-- The second bias. -/
theorem entry_b1b (c : Dev nD) : V1 m ρ c main_arg6 = (m ((c : Thread nD τ).loc main_arg6)) := by
  show StableHlo.after hostOps0 (W0 m ρ c) (Proc.devRef .tc main_arg6) = _
  after_results_simp
  try rfl

/-! ## The printed index maps over the grid -/

/-- The three row arrays and the three outputs move one block of 1600 rows per grid point; the weights and biases stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ True
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## The staged blocks at a grid point -/

/-- Row p of a staged block of 1600 rows is row 1600 t + p of its array. -/
theorem rows_read (c : Dev nD) (t : Fin cfg0.N) (p : Fin 1600) (l : Fin 128) (r : Fin 200000) (hr : r.val = t.val * 1600 + p.val) :
    iblk0 (V1 m ρ) c 0 t (ix2 p l) = V1 m ρ c main_v12 (ix2 r l)
    ∧ iblk0 (V1 m ρ) c 1 t (ix2 p l) = V1 m ρ c main_v5 (ix2 r l)
    ∧ iblk0 (V1 m ρ) c 2 t (ix2 p l) = V1 m ρ c main_v19 (ix2 r l) := by
  obtain ⟨f00, f01, f10, f11, f20, f21, -⟩ := idx_facts t
  have hp := p.isLt
  have hl := l.isLt
  refine ⟨?_, ?_, ?_⟩
  · show V1 m ρ c main_v12 (((cfg0.win 0).blk t).view.emb (ix2 p l)) = V1 m ρ c main_v12 (ix2 r l)
    refine congrArg _ (funext fun a => Fin.ext ?_)
    match a with
    | ⟨0, _⟩ => show win0_0.index t (0 : Fin 2) * 1600 + 1 * p.val = r.val; rw [f00]; omega
    | ⟨1, _⟩ => show win0_0.index t (1 : Fin 2) * 128 + 1 * l.val = l.val; rw [f01]; omega
  · show V1 m ρ c main_v5 (((cfg0.win 1).blk t).view.emb (ix2 p l)) = V1 m ρ c main_v5 (ix2 r l)
    refine congrArg _ (funext fun a => Fin.ext ?_)
    match a with
    | ⟨0, _⟩ => show win0_1.index t (0 : Fin 2) * 1600 + 1 * p.val = r.val; rw [f10]; omega
    | ⟨1, _⟩ => show win0_1.index t (1 : Fin 2) * 128 + 1 * l.val = l.val; rw [f11]; omega
  · show V1 m ρ c main_v19 (((cfg0.win 2).blk t).view.emb (ix2 p l)) = V1 m ρ c main_v19 (ix2 r l)
    refine congrArg _ (funext fun a => Fin.ext ?_)
    match a with
    | ⟨0, _⟩ => show win0_2.index t (0 : Fin 2) * 1600 + 1 * p.val = r.val; rw [f20]; omega
    | ⟨1, _⟩ => show win0_2.index t (1 : Fin 2) * 128 + 1 * l.val = l.val; rw [f21]; omega

/-- The weights and biases are staged whole at every grid point. -/
theorem whole_read (c : Dev nD) (t : Fin cfg0.N) :
    iblk0 (V1 m ρ) c 3 t = V1 m ρ c main_v20 ∧ iblk0 (V1 m ρ) c 4 t = V1 m ρ c main_arg4
    ∧ iblk0 (V1 m ρ) c 5 t = V1 m ρ c main_v21 ∧ iblk0 (V1 m ρ) c 6 t = V1 m ρ c main_arg6 := by
  obtain ⟨-, -, -, -, -, -, f30, f31, f40, f50, f51, f60, -⟩ := idx_facts t
  refine ⟨?_, ?_, ?_, ?_⟩
  · refine funext fun (y : S384x512.Idx) => ?_
    show V1 m ρ c main_v20 (((cfg0.win 3).blk t).view.emb y) = V1 m ρ c main_v20 y
    refine congrArg _ (funext fun a => Fin.ext ?_)
    match a with
    | ⟨0, _⟩ => show win0_3.index t (0 : Fin 2) * 384 + 1 * (y 0).val = (y 0).val; rw [f30]; omega
    | ⟨1, _⟩ => show win0_3.index t (1 : Fin 2) * 512 + 1 * (y 1).val = (y 1).val; rw [f31]; omega
  · refine funext fun (y : S512.Idx) => ?_
    show V1 m ρ c main_arg4 (((cfg0.win 4).blk t).view.emb y) = V1 m ρ c main_arg4 y
    refine congrArg _ (funext fun a => Fin.ext ?_)
    match a with
    | ⟨0, _⟩ => show win0_4.index t (0 : Fin 1) * 512 + 1 * (y 0).val = (y 0).val; rw [f40]; omega
  · refine funext fun (y : S512x1152.Idx) => ?_
    show V1 m ρ c main_v21 (((cfg0.win 5).blk t).view.emb y) = V1 m ρ c main_v21 y
    refine congrArg _ (funext fun a => Fin.ext ?_)
    match a with
    | ⟨0, _⟩ => show win0_5.index t (0 : Fin 2) * 512 + 1 * (y 0).val = (y 0).val; rw [f50]; omega
    | ⟨1, _⟩ => show win0_5.index t (1 : Fin 2) * 1152 + 1 * (y 1).val = (y 1).val; rw [f51]; omega
  · refine funext fun (y : S1152.Idx) => ?_
    show V1 m ρ c main_arg6 (((cfg0.win 6).blk t).view.emb y) = V1 m ρ c main_arg6 y
    refine congrArg _ (funext fun a => Fin.ext ?_)
    match a with
    | ⟨0, _⟩ => show win0_6.index t (0 : Fin 1) * 1152 + 1 * (y 0).val = (y 0).val; rw [f60]; omega

/-- The message network of row p of the staged blocks is the message network of the reference's rows 1600 t + p. -/
theorem block_rows (c : Dev nD) (t : Fin cfg0.N) (p : Fin 1600) (r : Fin 200000) (hr : r.val = t.val * 1600 + p.val) (j : Fin 1152) :
    net1 (fun l => iblk0 (V1 m ρ) c 0 t (ix2 p l)) (fun l => iblk0 (V1 m ρ) c 1 t (ix2 p l)) (fun l => iblk0 (V1 m ρ) c 2 t (ix2 p l))
        (iblk0 (V1 m ρ) c 3 t) (iblk0 (V1 m ρ) c 4 t) (iblk0 (V1 m ρ) c 5 t) (iblk0 (V1 m ρ) c 6 t) j
      = net1 (fun l => val_main_v10 (F := Ideal) (m ((c : Thread nD τ).loc main_arg0)) (m ((c : Thread nD τ).loc main_arg2)) (ix2 r l)) (fun l => (m ((c : Thread nD τ).loc main_arg1)) (ix2 r l))
          (fun l => val_main_v17 (F := Ideal) (m ((c : Thread nD τ).loc main_arg0)) (m ((c : Thread nD τ).loc main_arg2)) (ix2 r l)) (m ((c : Thread nD τ).loc main_arg3)) (m ((c : Thread nD τ).loc main_arg4)) (m ((c : Thread nD τ).loc main_arg5)) (m ((c : Thread nD τ).loc main_arg6)) j := by
  have hs : (fun l : Fin 128 => iblk0 (V1 m ρ) c 0 t (ix2 p l)) = fun l => val_main_v10 (F := Ideal) (m ((c : Thread nD τ).loc main_arg0)) (m ((c : Thread nD τ).loc main_arg2)) (ix2 r l) :=
    funext fun l => ((rows_read m ρ c t p l r hr).1).trans (congrFun (entry_s m ρ c) _)
  have hpr : (fun l : Fin 128 => iblk0 (V1 m ρ) c 1 t (ix2 p l)) = fun l => (m ((c : Thread nD τ).loc main_arg1)) (ix2 r l) :=
    funext fun l => ((rows_read m ρ c t p l r hr).2.1).trans (congrFun (entry_p m ρ c) _)
  have ho : (fun l : Fin 128 => iblk0 (V1 m ρ) c 2 t (ix2 p l)) = fun l => val_main_v17 (F := Ideal) (m ((c : Thread nD τ).loc main_arg0)) (m ((c : Thread nD τ).loc main_arg2)) (ix2 r l) :=
    funext fun l => ((rows_read m ρ c t p l r hr).2.2).trans (congrFun (entry_o m ρ c) _)
  obtain ⟨h3, h4, h5, h6⟩ := whole_read m ρ c t
  rw [hs, hpr, ho, h3, h4, h5, h6, entry_w1a, entry_b1a, entry_w1b, entry_b1b]

/-! ## What each grid point writes back, the cover, the whole arrays -/

/-- Grid point t writes back rows 1600 t … of the reference's first column slice (the subject messages). -/
theorem flushed_s (c : Dev nD) (t : Fin cfg0.N) :
    (dat0 (V1 m ρ) c).flushed 7 t
      = ((cfg0.win 7).blk t).view.read (Elt Ideal) (val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 7).cut (grid0.coords t) ((dat0 (V1 m ρ) c).after 7 t) = _
  rw [after0_7]
  refine funext fun (y : S1600x512.Idx) => ?_
  obtain ⟨p, q, rfl⟩ : ∃ (p : Fin 1600) (q : Fin 512), y = ix2 p q := ⟨y 0, y 1, eq_ix2 y⟩
  have ht : t.val < 125 := by have h : t.val < grid0.N := t.isLt; rw [N_0] at h; exact h
  have hp := p.isLt
  have hq := q.isLt
  obtain ⟨-, -, -, -, -, -, -, -, -, -, -, -, -, f70, f71, f80, f81, f90, f91⟩ := idx_facts t
  have hemb : ((cfg0.win 7).blk t).view.emb (ix2 p q)
      = ix2 (⟨t.val * 1600 + p.val, by omega⟩ : Fin 200000) q := funext fun a => Fin.ext (by
    match a with
    | ⟨0, _⟩ => show win0_7.index t (0 : Fin 2) * 1600 + 1 * p.val = t.val * 1600 + p.val; rw [f70]; omega
    | ⟨1, _⟩ => show win0_7.index t (1 : Fin 2) * 512 + 1 * q.val = q.val; rw [f71]; omega)
  show out0_7 (F := Ideal) (iblk0 (V1 m ρ) c 0 t) (iblk0 (V1 m ρ) c 1 t) (iblk0 (V1 m ρ) c 2 t) (iblk0 (V1 m ρ) c 3 t)
      (iblk0 (V1 m ρ) c 4 t) (iblk0 (V1 m ρ) c 5 t) (iblk0 (V1 m ρ) c 6 t) (ix2 p q)
    = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 p q))
  rw [hemb, Cert.KernelIdeal.Net1Entry.out7_apply _ _ _ _ _ _ _ p q (⟨0 + q.val, by omega⟩ : Fin 1152) rfl,
    Cert.ReferenceIdeal.Net1Ref.slice_s_apply _ _ _ _ _ _ _ _ q (⟨0 + q.val, by omega⟩ : Fin 1152) rfl]
  exact block_rows m ρ c t p _ rfl _

theorem mem_blk_s (t : Fin cfg0.N) (i : S200000x512.Idx) :
    i ∈ ((cfg0.win 7).blk t).view.set ↔ ∀ a : Fin 2, win0_7.index t a * S1600x512.size a ≤ (i a).val
      ∧ (i a).val < win0_7.index t a * S1600x512.size a + S1600x512.size a := by
  show i ∈ ((View.whole (Pipeline.arrRef spec0 7)).slice (win0_7.rect t)).set ↔ _
  rw [View.set_slice_whole, Rect.mem_set_unit]
  exact Iff.rfl

/-- Every row of the array lies in the block of the grid point numbered by the row over 1600. -/
theorem cover_s (i : S200000x512.Idx) :
    ∃ t : Fin cfg0.N, (cfg0.win 7).flush t = true ∧ i ∈ ((cfg0.win 7).blk t).view.set := by
  have hi0 : (i 0).val < 200000 := idx2_lt0 i
  have hi1 : (i 1).val < 512 := idx2_lt1 i
  have hN : grid0.N = 125 := N_0
  let t : Fin cfg0.N := ⟨(i 0).val / 1600, by show (i 0).val / 1600 < grid0.N; rw [hN]; omega⟩
  refine ⟨t, flush0_7 t, ?_⟩
  rw [mem_blk_s]
  obtain ⟨-, -, -, -, -, -, -, -, -, -, -, -, -, f70, f71, f80, f81, f90, f91⟩ := idx_facts t
  have htv : t.val = (i 0).val / 1600 := rfl
  intro a
  match a with
  | ⟨0, _⟩ =>
    show win0_7.index t (0 : Fin 2) * 1600 ≤ (i 0).val ∧ (i 0).val < win0_7.index t (0 : Fin 2) * 1600 + 1600
    rw [f70, htv]; omega
  | ⟨1, _⟩ =>
    show win0_7.index t (1 : Fin 2) * 512 ≤ (i 1).val ∧ (i 1).val < win0_7.index t (1 : Fin 2) * 512 + 512
    rw [f71]; omega

/-- The whole array after the first region. -/
theorem final_s (c : Dev nD) :
    (dat0 (V1 m ρ) c).arrAt 7 cfg0.N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dat0 (V1 m ρ) c).arrAt_eq_of_cover 7 _ (fun t _ => flushed_s m ρ c t) cover_s

/-- Grid point t writes back rows 1600 t … of the reference's middle column slice (the new predicate vectors). -/
theorem flushed_p (c : Dev nD) (t : Fin cfg0.N) :
    (dat0 (V1 m ρ) c).flushed 8 t
      = ((cfg0.win 8).blk t).view.read (Elt Ideal) (val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 8).cut (grid0.coords t) ((dat0 (V1 m ρ) c).after 8 t) = _
  rw [after0_8]
  refine funext fun (y : S1600x128.Idx) => ?_
  obtain ⟨p, q, rfl⟩ : ∃ (p : Fin 1600) (q : Fin 128), y = ix2 p q := ⟨y 0, y 1, eq_ix2 y⟩
  have ht : t.val < 125 := by have h : t.val < grid0.N := t.isLt; rw [N_0] at h; exact h
  have hp := p.isLt
  have hq := q.isLt
  obtain ⟨-, -, -, -, -, -, -, -, -, -, -, -, -, f70, f71, f80, f81, f90, f91⟩ := idx_facts t
  have hemb : ((cfg0.win 8).blk t).view.emb (ix2 p q)
      = ix2 (⟨t.val * 1600 + p.val, by omega⟩ : Fin 200000) q := funext fun a => Fin.ext (by
    match a with
    | ⟨0, _⟩ => show win0_8.index t (0 : Fin 2) * 1600 + 1 * p.val = t.val * 1600 + p.val; rw [f80]; omega
    | ⟨1, _⟩ => show win0_8.index t (1 : Fin 2) * 128 + 1 * q.val = q.val; rw [f81]; omega)
  show out0_8 (F := Ideal) (iblk0 (V1 m ρ) c 0 t) (iblk0 (V1 m ρ) c 1 t) (iblk0 (V1 m ρ) c 2 t) (iblk0 (V1 m ρ) c 3 t)
      (iblk0 (V1 m ρ) c 4 t) (iblk0 (V1 m ρ) c 5 t) (iblk0 (V1 m ρ) c 6 t) (ix2 p q)
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb (ix2 p q))
  rw [hemb, Cert.KernelIdeal.Net1Entry.out8_apply _ _ _ _ _ _ _ p q (⟨512 + q.val, by omega⟩ : Fin 1152) rfl,
    Cert.ReferenceIdeal.Net1Ref.slice_p_apply _ _ _ _ _ _ _ _ q (⟨512 + q.val, by omega⟩ : Fin 1152) rfl]
  exact block_rows m ρ c t p _ rfl _

theorem mem_blk_p (t : Fin cfg0.N) (i : S200000x128.Idx) :
    i ∈ ((cfg0.win 8).blk t).view.set ↔ ∀ a : Fin 2, win0_8.index t a * S1600x128.size a ≤ (i a).val
      ∧ (i a).val < win0_8.index t a * S1600x128.size a + S1600x128.size a := by
  show i ∈ ((View.whole (Pipeline.arrRef spec0 8)).slice (win0_8.rect t)).set ↔ _
  rw [View.set_slice_whole, Rect.mem_set_unit]
  exact Iff.rfl

/-- Every row of the array lies in the block of the grid point numbered by the row over 1600. -/
theorem cover_p (i : S200000x128.Idx) :
    ∃ t : Fin cfg0.N, (cfg0.win 8).flush t = true ∧ i ∈ ((cfg0.win 8).blk t).view.set := by
  have hi0 : (i 0).val < 200000 := idx2_lt0 i
  have hi1 : (i 1).val < 128 := idx2_lt1 i
  have hN : grid0.N = 125 := N_0
  let t : Fin cfg0.N := ⟨(i 0).val / 1600, by show (i 0).val / 1600 < grid0.N; rw [hN]; omega⟩
  refine ⟨t, flush0_8 t, ?_⟩
  rw [mem_blk_p]
  obtain ⟨-, -, -, -, -, -, -, -, -, -, -, -, -, f70, f71, f80, f81, f90, f91⟩ := idx_facts t
  have htv : t.val = (i 0).val / 1600 := rfl
  intro a
  match a with
  | ⟨0, _⟩ =>
    show win0_8.index t (0 : Fin 2) * 1600 ≤ (i 0).val ∧ (i 0).val < win0_8.index t (0 : Fin 2) * 1600 + 1600
    rw [f80, htv]; omega
  | ⟨1, _⟩ =>
    show win0_8.index t (1 : Fin 2) * 128 ≤ (i 1).val ∧ (i 1).val < win0_8.index t (1 : Fin 2) * 128 + 128
    rw [f81]; omega

/-- The whole array after the first region. -/
theorem final_p (c : Dev nD) :
    (dat0 (V1 m ρ) c).arrAt 8 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dat0 (V1 m ρ) c).arrAt_eq_of_cover 8 _ (fun t _ => flushed_p m ρ c t) cover_p

/-- Grid point t writes back rows 1600 t … of the reference's last column slice (the object messages). -/
theorem flushed_o (c : Dev nD) (t : Fin cfg0.N) :
    (dat0 (V1 m ρ) c).flushed 9 t
      = ((cfg0.win 9).blk t).view.read (Elt Ideal) (val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 9).cut (grid0.coords t) ((dat0 (V1 m ρ) c).after 9 t) = _
  rw [after0_9]
  refine funext fun (y : S1600x512.Idx) => ?_
  obtain ⟨p, q, rfl⟩ : ∃ (p : Fin 1600) (q : Fin 512), y = ix2 p q := ⟨y 0, y 1, eq_ix2 y⟩
  have ht : t.val < 125 := by have h : t.val < grid0.N := t.isLt; rw [N_0] at h; exact h
  have hp := p.isLt
  have hq := q.isLt
  obtain ⟨-, -, -, -, -, -, -, -, -, -, -, -, -, f70, f71, f80, f81, f90, f91⟩ := idx_facts t
  have hemb : ((cfg0.win 9).blk t).view.emb (ix2 p q)
      = ix2 (⟨t.val * 1600 + p.val, by omega⟩ : Fin 200000) q := funext fun a => Fin.ext (by
    match a with
    | ⟨0, _⟩ => show win0_9.index t (0 : Fin 2) * 1600 + 1 * p.val = t.val * 1600 + p.val; rw [f90]; omega
    | ⟨1, _⟩ => show win0_9.index t (1 : Fin 2) * 512 + 1 * q.val = q.val; rw [f91]; omega)
  show out0_9 (F := Ideal) (iblk0 (V1 m ρ) c 0 t) (iblk0 (V1 m ρ) c 1 t) (iblk0 (V1 m ρ) c 2 t) (iblk0 (V1 m ρ) c 3 t)
      (iblk0 (V1 m ρ) c 4 t) (iblk0 (V1 m ρ) c 5 t) (iblk0 (V1 m ρ) c 6 t) (ix2 p q)
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb (ix2 p q))
  rw [hemb, Cert.KernelIdeal.Net1Entry.out9_apply _ _ _ _ _ _ _ p q (⟨640 + q.val, by omega⟩ : Fin 1152) rfl,
    Cert.ReferenceIdeal.Net1Ref.slice_o_apply _ _ _ _ _ _ _ _ q (⟨640 + q.val, by omega⟩ : Fin 1152) rfl]
  exact block_rows m ρ c t p _ rfl _

theorem mem_blk_o (t : Fin cfg0.N) (i : S200000x512.Idx) :
    i ∈ ((cfg0.win 9).blk t).view.set ↔ ∀ a : Fin 2, win0_9.index t a * S1600x512.size a ≤ (i a).val
      ∧ (i a).val < win0_9.index t a * S1600x512.size a + S1600x512.size a := by
  show i ∈ ((View.whole (Pipeline.arrRef spec0 9)).slice (win0_9.rect t)).set ↔ _
  rw [View.set_slice_whole, Rect.mem_set_unit]
  exact Iff.rfl

/-- Every row of the array lies in the block of the grid point numbered by the row over 1600. -/
theorem cover_o (i : S200000x512.Idx) :
    ∃ t : Fin cfg0.N, (cfg0.win 9).flush t = true ∧ i ∈ ((cfg0.win 9).blk t).view.set := by
  have hi0 : (i 0).val < 200000 := idx2_lt0 i
  have hi1 : (i 1).val < 512 := idx2_lt1 i
  have hN : grid0.N = 125 := N_0
  let t : Fin cfg0.N := ⟨(i 0).val / 1600, by show (i 0).val / 1600 < grid0.N; rw [hN]; omega⟩
  refine ⟨t, flush0_9 t, ?_⟩
  rw [mem_blk_o]
  obtain ⟨-, -, -, -, -, -, -, -, -, -, -, -, -, f70, f71, f80, f81, f90, f91⟩ := idx_facts t
  have htv : t.val = (i 0).val / 1600 := rfl
  intro a
  match a with
  | ⟨0, _⟩ =>
    show win0_9.index t (0 : Fin 2) * 1600 ≤ (i 0).val ∧ (i 0).val < win0_9.index t (0 : Fin 2) * 1600 + 1600
    rw [f90, htv]; omega
  | ⟨1, _⟩ =>
    show win0_9.index t (1 : Fin 2) * 512 ≤ (i 1).val ∧ (i 1).val < win0_9.index t (1 : Fin 2) * 512 + 512
    rw [f91]; omega

/-- The whole array after the first region. -/
theorem final_o (c : Dev nD) :
    (dat0 (V1 m ρ) c).arrAt 9 cfg0.N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dat0 (V1 m ρ) c).arrAt_eq_of_cover 9 _ (fun t _ => flushed_o m ρ c t) cover_o

end Cert.KernelIdeal.Net1Blocks

end
-- ==== Proof.LibColumnBroadcast.lean ====
/-
  One column broadcast over many: an [a, 1] array broadcast to [a, b] reads, at (p, c), the operand's one column at row p,
  whatever the column c.  General in a and b.
-/
import Idealize.ShloMosaic.Lib.Pipeline.Value
import Idealize.ShloMosaic.Lib.ValueIdx

noncomputable section

namespace Cert.LibColumnBroadcast

open Idealize.ShloMosaic Idealize.ShloMosaic.ValueIdx

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumnBroadcast

end
-- ==== Proof.Net2Entry.lean ====
/-
  The object kernel's body, read at an entry.

  At a grid point the body holds 2000 pooled rows and their 2000 counts (one column), the whole weight matrices and
  biases.  Row p of what it stores is the object network of pooled row p and count p: every entry of the row divided by
  max(count, 1), then two dense layers with rectifiers.
-/
import proofs.«163111_j10668698763869_2_alg».proof.Proof.Gen.KernelIdeal.Frame
import proofs.«163111_j10668698763869_2_alg».proof.Proof.Formulas
import proofs.«163111_j10668698763869_2_alg».proof.Proof.LibPlainDot
import proofs.«163111_j10668698763869_2_alg».proof.Proof.LibColumnBroadcast
import proofs.«163111_j10668698763869_2_alg».proof.Proof.Net1Entry
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Net2Entry

open Idealize.ShloMosaic Idealize.ShloMosaic.ValueIdx Cert.KernelIdeal Cert.KernelIdeal.Gen Cert.Formulas
open Cert.KernelIdeal.Net1Entry (hz hz1)

/-- The pooled block divided by the clamped counts, as one vector. -/
def meanVec (cnt : Vec Ideal S2000x1 .f32) (pool : Vec Ideal S2000x512 .f32) : FVec Ideal S2000x512 .f32 :=
  divf (shapeCast S2000x512 pool shapeCasts_S2000x512_S2000x512 : FVec Ideal S2000x512 .f32)
    (broadcastTo S2000x512
      (maximumf (shapeCast S2000x1 cnt shapeCasts_S2000x1_S2000x1 : FVec Ideal S2000x1 .f32)
        (broadcast S2000x1 (Scalar.ofBits (F := Ideal) .f32 0x3F800000#32)))
      broadcasts_S2000x1_S2000x512)

theorem meanVec_apply (cnt : Vec Ideal S2000x1 .f32) (pool : Vec Ideal S2000x512 .f32) (p : Fin 2000) (l : Fin 512) :
    meanVec cnt pool (ix2 p l) = Ideal.div (pool (ix2 p l)) (max (cnt (ix2 p (0 : Fin 1))) oneW) := by
  unfold meanVec
  simp only [shapeCast_self]
  rw [divf_apply, Cert.LibColumnBroadcast.broadcastTo_a1_ab_apply, maximumf_apply, broadcast_apply]
  rfl

/-- The rectified first layer of the object network, as one vector. -/
def hid2Vec (cnt : Vec Ideal S2000x1 .f32) (pool : Vec Ideal S2000x512 .f32) (Wa : Vec Ideal S512x512 .bf16) (ba : Vec Ideal S512 .f32) :
    FVec Ideal S2000x512 .f32 :=
  maximumf (addf
      (matmul dot_S2000x512_S512x512_S2000x512_1_0_0_1_n_n none (truncf .bf16 (meanVec cnt pool) bitsLt_bf16_f32)
        (shapeCast S512x512 Wa shapeCasts_S512x512_S512x512 : FVec Ideal S512x512 .bf16) (constant (F := Ideal) S2000x512 .f32 0x00000000#32))
      (broadcastTo S2000x512 (shapeCast S1x512 ba shapeCasts_S512_S1x512) broadcasts_S1x512_S2000x512))
    (broadcast S2000x512 (Scalar.ofBits (F := Ideal) .f32 0x00000000#32))

theorem dims3 : dot_S2000x512_S512x512_S2000x512_1_0_0_1_n_n
    = Cert.LibPlainDot.dims Facts₀.dot_S2000x512_S512x512_S2000x512_1_0_0_1_n_n_wf := rfl

theorem dims4 : dot_S2000x512_S512x128_S2000x128_1_0_0_1_n_n
    = Cert.LibPlainDot.dims Facts₀.dot_S2000x512_S512x128_S2000x128_1_0_0_1_n_n_wf := rfl

theorem hid2Vec_apply (cnt : Vec Ideal S2000x1 .f32) (pool : Vec Ideal S2000x512 .f32) (Wa : Vec Ideal S512x512 .bf16) (ba : Vec Ideal S512 .f32)
    (p : Fin 2000) (k : Fin 512) :
    hid2Vec cnt pool Wa ba (ix2 p k)
      = dense (fun l => Ideal.div (pool (ix2 p l)) (max (cnt (ix2 p (0 : Fin 1))) oneW)) Wa ba k := by
  unfold hid2Vec
  simp only [shapeCast_self]
  rw [maximumf_apply, addf_apply, broadcast_apply, dims3]
  simp only [matmul]
  rw [Cert.LibPlainDot.matmul_zero_apply, broadcastTo_1b_ab_apply, shapeCast_a_1a_apply]
  unfold dense
  refine congrArg (fun z => max (z + ba (ix1 k)) zeroW) (Finset.sum_congr rfl fun l _ => ?_)
  rw [truncf_apply, meanVec_apply]

/-- The body's stored value at (p, q): the object network of pooled row p and count p. -/
theorem pay1_apply (cnt : Vec Ideal S2000x1 .f32) (pool : Vec Ideal S2000x512 .f32) (Wa : Vec Ideal S512x512 .bf16) (ba : Vec Ideal S512 .f32)
    (Wb : Vec Ideal S512x128 .bf16) (bb : Vec Ideal S128 .f32) (p : Fin 2000) (q : Fin 128) :
    k1_pay1 (F := Ideal) cnt pool Wa ba Wb bb (ix2 p q)
      = net2 (fun l => pool (ix2 p l)) (cnt (ix2 p (0 : Fin 1))) Wa ba Wb bb q := by
  have h : k1_pay1 (F := Ideal) cnt pool Wa ba Wb bb
      = maximumf (addf (matmul dot_S2000x512_S512x128_S2000x128_1_0_0_1_n_n none
            (truncf .bf16 (hid2Vec cnt pool Wa ba) bitsLt_bf16_f32)
            (shapeCast S512x128 Wb shapeCasts_S512x128_S512x128 : FVec Ideal S512x128 .bf16) (constant (F := Ideal) S2000x128 .f32 0x00000000#32))
          (broadcastTo S2000x128 (shapeCast S1x128 bb shapeCasts_S128_S1x128) broadcasts_S1x128_S2000x128))
        (broadcast S2000x128 (Scalar.ofBits (F := Ideal) .f32 0x00000000#32)) := rfl
  rw [h]
  simp only [shapeCast_self]
  rw [maximumf_apply, addf_apply, broadcast_apply, dims4]
  simp only [matmul]
  rw [Cert.LibPlainDot.matmul_zero_apply, broadcastTo_1b_ab_apply, shapeCast_a_1a_apply]
  unfold net2
  show max ((∑ k : Fin 512, _ * Wb (ix2 k q)) + bb (ix1 q)) zeroW = dense _ Wb bb q
  unfold dense
  refine congrArg (fun z => max (z + bb (ix1 q)) zeroW) (Finset.sum_congr rfl fun k _ => ?_)
  rw [truncf_apply, hid2Vec_apply]
  rfl

/-- The body's one store, from the staged blocks. -/
theorem out6_apply (x0 : Vec Ideal S2000x512 .f32) (x1 : Vec Ideal S2000x1 .f32) (x2 : Vec Ideal S512x512 .bf16) (x3 : Vec Ideal S512 .f32)
    (x4 : Vec Ideal S512x128 .bf16) (x5 : Vec Ideal S128 .f32) (p : Fin 2000) (q : Fin 128) :
    out1_6 (F := Ideal) x0 x1 x2 x3 x4 x5 (ix2 p q)
      = net2 (fun l => x0 (ix2 p l)) (x1 (ix2 p (0 : Fin 1))) x2 x3 x4 x5 q := by
  unfold out1_6
  rw [View.canon_unit_zero hz]
  simp only [View.ld_unit_zero (S := S2000x1) hz, View.ld_unit_zero (S := S2000x512) hz, View.ld_unit_zero (S := S512x512) hz,
    View.ld_unit_zero (S := S512x128) hz, View.ld_unit_zero (S := S512) hz1, View.ld_unit_zero (S := S128) hz1]
  rw [pay1_apply]

end Cert.KernelIdeal.Net2Entry

end
-- ==== Proof.Net2Ref.lean ====
/-
  The reference's object network, read at an entry.

  The reference clamps the counts to at least 1, divides every entry of pooled row r by the clamped count r, and applies
  two dense layers with rectifiers.  Entry (r, q) of the result is the object network of pooled row r and count r — with
  the pooled sums and the counts left as the arrays the pooling produced (they are never opened: both programs pool with
  the same operations).
-/
import proofs.«163111_j10668698763869_2_alg».proof.Proof.Gen.ReferenceIdeal.Read
import proofs.«163111_j10668698763869_2_alg».proof.Proof.Formulas
import Idealize.ShloMosaic.Lib.ValueIdx
import Idealize.ShloMosaic.Lib.Pipeline.Value

set_option maxRecDepth 16384

noncomputable section

namespace Cert.ReferenceIdeal.Net2Ref

open Idealize.ShloMosaic Idealize.ShloMosaic.ValueIdx Cert.ReferenceIdeal Cert.ReferenceIdeal.Read Cert.Formulas

variable (x0 : (⟨S50000x128, .f32⟩ : BufTy).Contents (Elt Ideal)) (x1 : (⟨S200000x128, .f32⟩ : BufTy).Contents (Elt Ideal))
  (x2 : (⟨S200000x2, .i32⟩ : BufTy).Contents (Elt Ideal)) (x3 : (⟨S384x512, .f32⟩ : BufTy).Contents (Elt Ideal))
  (x4 : (⟨S512, .f32⟩ : BufTy).Contents (Elt Ideal)) (x5 : (⟨S512x1152, .f32⟩ : BufTy).Contents (Elt Ideal))
  (x6 : (⟨S1152, .f32⟩ : BufTy).Contents (Elt Ideal)) (x7 : (⟨S512x512, .f32⟩ : BufTy).Contents (Elt Ideal))
  (x8 : (⟨S512, .f32⟩ : BufTy).Contents (Elt Ideal)) (x9 : (⟨S512x128, .f32⟩ : BufTy).Contents (Elt Ideal))
  (x10 : (⟨S128, .f32⟩ : BufTy).Contents (Elt Ideal))

/-- The averaged pooled entry (r, l): the pooled sum over max(count r, 1). -/
theorem mean_apply (r : Fin 50000) (l : Fin 512) :
    val_main_v51 (F := Ideal) x0 x1 x2 x3 x4 x5 x6 (ix2 r l)
      = Ideal.div (val_main_v38 (F := Ideal) x0 x1 x2 x3 x4 x5 x6 (ix2 r l)) (max (val_main_v46 (F := Ideal) x2 (ix1 r)) oneW) := by
  rw [val_main_v51_apply, val_main_v50_apply, val_main_v49_apply, val_main_v48_apply, val_main_v47_apply, val_main_cst_7_apply]
  have e : idx_main_v49 (idx_main_v50 (ix2 r l)) = ix1 r := funext fun a => Fin.ext (by
    match a with
    | ⟨0, _⟩ => rfl)
  rw [e]
  rfl

/-- The rectified first layer at (r, k). -/
theorem hidden_apply (r : Fin 50000) (k : Fin 512) :
    val_main_v56 (F := Ideal) x0 x1 x2 x3 x4 x5 x6 x7 x8 (ix2 r k)
      = dense (fun l => Ideal.div (val_main_v38 (F := Ideal) x0 x1 x2 x3 x4 x5 x6 (ix2 r l)) (max (val_main_v46 (F := Ideal) x2 (ix1 r)) oneW)) x7 x8 k := by
  rw [val_main_v56_apply, val_main_v55_apply, val_main_v52_apply, val_main_v54_apply, val_main_v53_apply,
    val_main_call2_v0_apply, val_main_call2_cst_apply]
  have e1 : ∀ l : Fin 512, lidx_main_v52 (ix2 r k) l = ix2 r l := fun l => funext fun a => Fin.ext (by
    match a with
    | ⟨0, _⟩ => rfl
    | ⟨1, _⟩ => rfl)
  have e2 : ∀ l : Fin 512, ridx_main_v52 (ix2 r k) l = ix2 l k := fun l => funext fun a => Fin.ext (by
    match a with
    | ⟨0, _⟩ => rfl
    | ⟨1, _⟩ => rfl)
  have e3 : idx_main_v53 (idx_main_v54 (ix2 r k)) = ix1 k := funext fun a => Fin.ext (by
    match a with
    | ⟨0, _⟩ => rfl)
  simp only [e1, e2, e3, mean_apply]
  rfl

/-- The object network's result at (r, q). -/
theorem result_apply (r : Fin 50000) (q : Fin 128) :
    val_main_v61 (F := Ideal) x0 x1 x2 x3 x4 x5 x6 x7 x8 x9 x10 (ix2 r q)
      = net2 (fun l => val_main_v38 (F := Ideal) x0 x1 x2 x3 x4 x5 x6 (ix2 r l)) (val_main_v46 (F := Ideal) x2 (ix1 r)) x7 x8 x9 x10 q := by
  rw [val_main_v61_apply, val_main_v60_apply, val_main_v57_apply, val_main_v59_apply, val_main_v58_apply,
    val_main_call3_v0_apply, val_main_call3_cst_apply]
  have e1 : ∀ k : Fin 512, lidx_main_v57 (ix2 r q) k = ix2 r k := fun k => funext fun a => Fin.ext (by
    match a with
    | ⟨0, _⟩ => rfl
    | ⟨1, _⟩ => rfl)
  have e2 : ∀ k : Fin 512, ridx_main_v57 (ix2 r q) k = ix2 k q := fun k => funext fun a => Fin.ext (by
    match a with
    | ⟨0, _⟩ => rfl
    | ⟨1, _⟩ => rfl)
  have e3 : idx_main_v58 (idx_main_v59 (ix2 r q)) = ix1 q := funext fun a => Fin.ext (by
    match a with
    | ⟨0, _⟩ => rfl)
  simp only [e1, e2, e3, hidden_apply]
  rfl

end Cert.ReferenceIdeal.Net2Ref

end
-- ==== Proof.Net2Blocks.lean ====
/-
  The second region's output array, whole.

  Between the regions the host pools: it scatter-adds the subject messages and the object messages (the first region's
  first and third outputs, which are the reference's two column slices) at the index pairs' first and second column,
  adds the two, and counts in the same way — the reference's own operations on equal operands, so the pooled sums and
  the counts the second region finds are the reference's, as whole arrays; the counts arrive as one column.  Grid point
  t stages pooled rows and counts 2000 t … 2000 t + 1999 and writes back rows 2000 t … of the output: by the body's
  formula the reference's object network on those rows.  The 25 grid points cover all 50000 rows.
-/
import proofs.«163111_j10668698763869_2_alg».proof.Proof.Gen.KernelIdeal.Frame
import proofs.«163111_j10668698763869_2_alg».proof.Proof.Gen.ReferenceIdeal.Read
import proofs.«163111_j10668698763869_2_alg».proof.Proof.Formulas
import proofs.«163111_j10668698763869_2_alg».proof.Proof.Net1Blocks
import proofs.«163111_j10668698763869_2_alg».proof.Proof.Net2Entry
import proofs.«163111_j10668698763869_2_alg».proof.Proof.Net2Ref
import Idealize.ShloMosaic.Lib.StableHlo.Run
import Idealize.ShloMosaic.Lib.Pipeline.Value
import Idealize.ShloMosaic.Lib.ValueIdx

set_option maxRecDepth 16384

noncomputable section

namespace Cert.KernelIdeal.Net2Blocks

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Formulas
open Cert.ReferenceIdeal.Read (val_main_v1 val_main_v3 val_main_v38 val_main_v46 val_main_v61)

variable (m : (ℓ : Loc nD τ sig) → Buf (Elt Ideal) ℓ) (ρ : Dev nD → PrngReg)

/-! ## What the first region and the host operations before it leave for the host operations between the regions -/

set_option maxHeartbeats 1000000 in
/-- The first column of the index pairs, as the reference reads it. -/
theorem left_idx_s (c : Dev nD) : W2 m ρ c (Proc.devRef .tc main_v1) = val_main_v1 (F := Ideal) (m ((c : Thread nD τ).loc main_arg2)) := by
  refine (W2_of_ne m ρ c main_v1 (by decide)).trans ?_
  show StableHlo.after hostOps0 (W0 m ρ c) (Proc.devRef .tc main_v1) = _
  after_results_simp
  try rfl

set_option maxHeartbeats 1000000 in
/-- The second column of the index pairs. -/
theorem left_idx_o (c : Dev nD) : W2 m ρ c (Proc.devRef .tc main_v3) = val_main_v3 (F := Ideal) (m ((c : Thread nD τ).loc main_arg2)) := by
  refine (W2_of_ne m ρ c main_v3 (by decide)).trans ?_
  show StableHlo.after hostOps0 (W0 m ρ c) (Proc.devRef .tc main_v3) = _
  after_results_simp
  try rfl

set_option maxHeartbeats 1000000 in
theorem left_w2a (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results_simp
  try rfl

set_option maxHeartbeats 1000000 in
theorem left_w2b (c : Dev nD) : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results_simp
  try rfl

set_option maxHeartbeats 1000000 in
theorem left_b2a (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results_simp
  try rfl

set_option maxHeartbeats 1000000 in
theorem left_b2b (c : Dev nD) : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results_simp
  try rfl

/-- The subject messages and the object messages: the reference's two column slices. -/
theorem left_msg_s (c : Dev nD) : W2 m ρ c (Proc.devRef .tc main_v22_0)
    = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W2_arr m ρ c 7).trans (Cert.KernelIdeal.Net1Blocks.final_s m ρ c)

theorem left_msg_o (c : Dev nD) : W2 m ρ c (Proc.devRef .tc main_v22_2)
    = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W2_arr m ρ c 9).trans (Cert.KernelIdeal.Net1Blocks.final_o m ρ c)

/-! ## The arrays the second region finds -/

set_option maxHeartbeats 1000000 in
/-- The pooled sums: the reference's. -/
theorem entry_pool (c : Dev nD) : V3 m ρ c main_v29 = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v29) = _
  after_results_simp
  rw [left_msg_s, left_msg_o, left_idx_s, left_idx_o]
  rfl

set_option maxHeartbeats 1000000 in
/-- The counts, as one column: the reference's counts before the clamp. -/
theorem entry_cnt (c : Dev nD) : V3 m ρ c main_v38
    = broadcastInDim S50000x1 ![0] bcast_S50000_S50000x1_0 (val_main_v46 (F := Ideal) (m ((c : Thread nD τ).loc main_arg2))) := by
  show StableHlo.after hostOps1 (W2 m ρ c) (Proc.devRef .tc main_v38) = _
  after_results_simp
  rw [left_idx_s, left_idx_o]
  rfl

set_option maxHeartbeats 1000000 in
theorem entry_w2a (c : Dev nD) : V3 m ρ c main_v39 = (m ((c : Thread nD τ).loc main_arg7)) := by
  show StableHlo.after hostOps1 (W2 m ρ c) (Proc.devRef .tc main_v39) = _
  after_results_simp
  rw [left_w2a]
  rfl

set_option maxHeartbeats 1000000 in
theorem entry_w2b (c : Dev nD) : V3 m ρ c main_v40 = (m ((c : Thread nD τ).loc main_arg9)) := by
  show StableHlo.after hostOps1 (W2 m ρ c) (Proc.devRef .tc main_v40) = _
  after_results_simp
  rw [left_w2b]
  rfl

set_option maxHeartbeats 1000000 in
theorem entry_b2a (c : Dev nD) : V3 m ρ c main_arg8 = (m ((c : Thread nD τ).loc main_arg8)) := by
  show StableHlo.after hostOps1 (W2 m ρ c) (Proc.devRef .tc main_arg8) = _
  after_results_simp
  exact left_b2a m ρ c

set_option maxHeartbeats 1000000 in
theorem entry_b2b (c : Dev nD) : V3 m ρ c main_arg10 = (m ((c : Thread nD τ).loc main_arg10)) := by
  show StableHlo.after hostOps1 (W2 m ρ c) (Proc.devRef .tc main_arg10) = _
  after_results_simp
  exact left_b2b m ρ c

/-- A vector laid out as one column, read at (r, 0). -/
theorem column_apply (y : S50000.Idx → EReal) (r : Fin 50000) (u : Fin 1) :
    broadcastInDim S50000x1 ![0] bcast_S50000_S50000x1_0 y (ix2 r u) = y (ix1 r) :=
  broadcastInDim_apply _ bcast_S50000_S50000x1_0 y (ix2 r u) (ix1 r) (fun a => match a with
    | ⟨0, _⟩ => by show r.val = if (50000 : Nat) = 1 then 0 else r.val; rw [if_neg (by decide)])

/-! ## The printed index maps over the grid -/

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-! ## The staged blocks at a grid point -/

/-- Row p of the staged pooled block and of the staged count column is row 2000 t + p of its array. -/
theorem rows_read (c : Dev nD) (t : Fin cfg1.N) (p : Fin 2000) (r : Fin 50000) (hr : r.val = t.val * 2000 + p.val) :
    (∀ l : Fin 512, iblk1 (V3 m ρ) c 0 t (ix2 p l) = V3 m ρ c main_v29 (ix2 r l))
    ∧ iblk1 (V3 m ρ) c 1 t (ix2 p (0 : Fin 1)) = V3 m ρ c main_v38 (ix2 r (0 : Fin 1)) := by
  obtain ⟨f00, f01, f10, f11, -⟩ := idx_facts t
  have hp := p.isLt
  refine ⟨fun l => ?_, ?_⟩
  · have hl := l.isLt
    show V3 m ρ c main_v29 (((cfg1.win 0).blk t).view.emb (ix2 p l)) = V3 m ρ c main_v29 (ix2 r l)
    refine congrArg _ (funext fun a => Fin.ext ?_)
    match a with
    | ⟨0, _⟩ => show win1_0.index t (0 : Fin 2) * 2000 + 1 * p.val = r.val; rw [f00]; omega
    | ⟨1, _⟩ => show win1_0.index t (1 : Fin 2) * 512 + 1 * l.val = l.val; rw [f01]; omega
  · show V3 m ρ c main_v38 (((cfg1.win 1).blk t).view.emb (ix2 p (0 : Fin 1))) = V3 m ρ c main_v38 (ix2 r (0 : Fin 1))
    refine congrArg _ (funext fun a => Fin.ext ?_)
    match a with
    | ⟨0, _⟩ => show win1_1.index t (0 : Fin 2) * 2000 + 1 * p.val = r.val; rw [f10]; omega
    | ⟨1, _⟩ => show win1_1.index t (1 : Fin 2) * 1 + 1 * 0 = 0; rw [f11]

/-- The weights and biases are staged whole at every grid point. -/
theorem whole_read (c : Dev nD) (t : Fin cfg1.N) :
    iblk1 (V3 m ρ) c 2 t = V3 m ρ c main_v39 ∧ iblk1 (V3 m ρ) c 3 t = V3 m ρ c main_arg8
    ∧ iblk1 (V3 m ρ) c 4 t = V3 m ρ c main_v40 ∧ iblk1 (V3 m ρ) c 5 t = V3 m ρ c main_arg10 := by
  obtain ⟨-, -, -, -, f20, f21, f30, f40, f41, f50, -⟩ := idx_facts t
  refine ⟨?_, ?_, ?_, ?_⟩
  · refine funext fun (y : S512x512.Idx) => ?_
    show V3 m ρ c main_v39 (((cfg1.win 2).blk t).view.emb y) = V3 m ρ c main_v39 y
    refine congrArg _ (funext fun a => Fin.ext ?_)
    match a with
    | ⟨0, _⟩ => show win1_2.index t (0 : Fin 2) * 512 + 1 * (y 0).val = (y 0).val; rw [f20]; omega
    | ⟨1, _⟩ => show win1_2.index t (1 : Fin 2) * 512 + 1 * (y 1).val = (y 1).val; rw [f21]; omega
  · refine funext fun (y : S512.Idx) => ?_
    show V3 m ρ c main_arg8 (((cfg1.win 3).blk t).view.emb y) = V3 m ρ c main_arg8 y
    refine congrArg _ (funext fun a => Fin.ext ?_)
    match a with
    | ⟨0, _⟩ => show win1_3.index t (0 : Fin 1) * 512 + 1 * (y 0).val = (y 0).val; rw [f30]; omega
  · refine funext fun (y : S512x128.Idx) => ?_
    show V3 m ρ c main_v40 (((cfg1.win 4).blk t).view.emb y) = V3 m ρ c main_v40 y
    refine congrArg _ (funext fun a => Fin.ext ?_)
    match a with
    | ⟨0, _⟩ => show win1_4.index t (0 : Fin 2) * 512 + 1 * (y 0).val = (y 0).val; rw [f40]; omega
    | ⟨1, _⟩ => show win1_4.index t (1 : Fin 2) * 128 + 1 * (y 1).val = (y 1).val; rw [f41]; omega
  · refine funext fun (y : S128.Idx) => ?_
    show V3 m ρ c main_arg10 (((cfg1.win 5).blk t).view.emb y) = V3 m ρ c main_arg10 y
    refine congrArg _ (funext fun a => Fin.ext ?_)
    match a with
    | ⟨0, _⟩ => show win1_5.index t (0 : Fin 1) * 128 + 1 * (y 0).val = (y 0).val; rw [f50]; omega

/-- The object network of row p of the staged blocks is the object network of the reference's pooled row and count 2000 t + p. -/
theorem block_rows (c : Dev nD) (t : Fin cfg1.N) (p : Fin 2000) (r : Fin 50000) (hr : r.val = t.val * 2000 + p.val) (q : Fin 128) :
    net2 (fun l => iblk1 (V3 m ρ) c 0 t (ix2 p l)) (iblk1 (V3 m ρ) c 1 t (ix2 p (0 : Fin 1)))
        (iblk1 (V3 m ρ) c 2 t) (iblk1 (V3 m ρ) c 3 t) (iblk1 (V3 m ρ) c 4 t) (iblk1 (V3 m ρ) c 5 t) q
      = net2 (fun l => val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r l)) (val_main_v46 (F := Ideal) (m ((c : Thread nD τ).loc main_arg2)) (ix1 r))
          (m ((c : Thread nD τ).loc main_arg7)) (m ((c : Thread nD τ).loc main_arg8)) (m ((c : Thread nD τ).loc main_arg9)) (m ((c : Thread nD τ).loc main_arg10)) q := by
  obtain ⟨hrow, hcnt⟩ := rows_read m ρ c t p r hr
  have hpool : (fun l : Fin 512 => iblk1 (V3 m ρ) c 0 t (ix2 p l)) = fun l => val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r l) :=
    funext fun l => (hrow l).trans (congrFun (entry_pool m ρ c) _)
  have hc : iblk1 (V3 m ρ) c 1 t (ix2 p (0 : Fin 1)) = val_main_v46 (F := Ideal) (m ((c : Thread nD τ).loc main_arg2)) (ix1 r) :=
    hcnt.trans ((congrFun (entry_cnt m ρ c) _).trans (column_apply _ r 0))
  obtain ⟨h2, h3, h4, h5⟩ := whole_read m ρ c t
  rw [hpool, hc, h2, h3, h4, h5, entry_w2a, entry_b2a, entry_w2b, entry_b2b]

/-! ## What each grid point writes back, the cover, the whole array -/

/-- Grid point t writes back rows 2000 t … of the reference's object network. -/
theorem flushed_obj (c : Dev nD) (t : Fin cfg1.N) :
    (dat1 (V3 m ρ) c).flushed 6 t
      = ((cfg1.win 6).blk t).view.read (Elt Ideal) (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg1.win 6).cut (grid1.coords t) ((dat1 (V3 m ρ) c).after 6 t) = _
  rw [after1_6]
  refine funext fun (y : S2000x128.Idx) => ?_
  obtain ⟨p, q, rfl⟩ : ∃ (p : Fin 2000) (q : Fin 128), y = ix2 p q := ⟨y 0, y 1, eq_ix2 y⟩
  have ht : t.val < 25 := by have h : t.val < grid1.N := t.isLt; rw [N_1] at h; exact h
  have hp := p.isLt
  have hq := q.isLt
  obtain ⟨-, -, -, -, -, -, -, -, -, -, f60, f61⟩ := idx_facts t
  have hemb : ((cfg1.win 6).blk t).view.emb (ix2 p q)
      = ix2 (⟨t.val * 2000 + p.val, by omega⟩ : Fin 50000) q := funext fun a => Fin.ext (by
    match a with
    | ⟨0, _⟩ => show win1_6.index t (0 : Fin 2) * 2000 + 1 * p.val = t.val * 2000 + p.val; rw [f60]; omega
    | ⟨1, _⟩ => show win1_6.index t (1 : Fin 2) * 128 + 1 * q.val = q.val; rw [f61]; omega)
  show out1_6 (F := Ideal) (iblk1 (V3 m ρ) c 0 t) (iblk1 (V3 m ρ) c 1 t) (iblk1 (V3 m ρ) c 2 t) (iblk1 (V3 m ρ) c 3 t)
      (iblk1 (V3 m ρ) c 4 t) (iblk1 (V3 m ρ) c 5 t) (ix2 p q)
    = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg1.win 6).blk t).view.emb (ix2 p q))
  rw [hemb, Cert.KernelIdeal.Net2Entry.out6_apply, Cert.ReferenceIdeal.Net2Ref.result_apply]
  exact block_rows m ρ c t p _ rfl q

theorem mem_blk_obj (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole (Pipeline.arrRef spec1 6)).slice (win1_6.rect t)).set ↔ _
  rw [View.set_slice_whole, Rect.mem_set_unit]
  exact Iff.rfl

/-- Every row of the output lies in the block of the grid point numbered by the row over 2000. -/
theorem cover_obj (i : S50000x128.Idx) :
    ∃ t : Fin cfg1.N, (cfg1.win 6).flush t = true ∧ i ∈ ((cfg1.win 6).blk t).view.set := by
  have hi0 : (i 0).val < 50000 := idx2_lt0 i
  have hi1 : (i 1).val < 128 := idx2_lt1 i
  have hN : grid1.N = 25 := N_1
  let t : Fin cfg1.N := ⟨(i 0).val / 2000, by show (i 0).val / 2000 < grid1.N; rw [hN]; omega⟩
  refine ⟨t, flush1_6 t, ?_⟩
  rw [mem_blk_obj]
  obtain ⟨-, -, -, -, -, -, -, -, -, -, f60, f61⟩ := idx_facts t
  have htv : t.val = (i 0).val / 2000 := rfl
  intro a
  match a with
  | ⟨0, _⟩ =>
    show win1_6.index t (0 : Fin 2) * 2000 ≤ (i 0).val ∧ (i 0).val < win1_6.index t (0 : Fin 2) * 2000 + 2000
    rw [f60, htv]; omega
  | ⟨1, _⟩ =>
    show win1_6.index t (1 : Fin 2) * 128 ≤ (i 1).val ∧ (i 1).val < win1_6.index t (1 : Fin 2) * 128 + 128
    rw [f61]; omega

/-- The whole output array after the second region: the reference's new object vectors. -/
theorem final_obj (c : Dev nD) :
    (dat1 (V3 m ρ) c).arrAt 6 cfg1.N = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dat1 (V3 m ρ) c).arrAt_eq_of_cover 6 _ (fun t _ => flushed_obj m ρ c t) cover_obj

end Cert.KernelIdeal.Net2Blocks

end
-- ==== Proof.KernelValue.lean ====
/-
  The idealized kernel program's two results, as whole-array functions of its arguments.

  The final memory is the fold of the program's four stretches over the launch memory.  The new object vectors are the
  second region's output array: the reference's object network of the pooled rows.  The new predicate vectors are the
  first region's middle output array — no later host operation and no window of the second region writes it —: the
  reference's middle column slice of its message network.  The arguments end as launched.
-/
import proofs.«163111_j10668698763869_2_alg».proof.Proof.EndState
import proofs.«163111_j10668698763869_2_alg».proof.Proof.Net1Blocks
import proofs.«163111_j10668698763869_2_alg».proof.Proof.Net2Blocks

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen
open Cert.ReferenceIdeal.Read (val_main_v30 val_main_v61)

variable (m : (ℓ : Loc nD τ sig) → Buf (Elt Ideal) ℓ) (ρ : Dev nD → PrngReg)

/-- The first region's middle output array is still what the first region left, at the end. -/
theorem last_pred (c : Dev nD) : W4 m ρ c (Proc.devRef .tc main_v22_1) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  calc W4 m ρ c (Proc.devRef .tc main_v22_1)
    _ = W3 m ρ c (Proc.devRef .tc main_v22_1) := W4_of_ne m ρ c main_v22_1 (by decide)
    _ = W2 m ρ c (Proc.devRef .tc main_v22_1) := StableHlo.after_of_forall_not_mem (b := Proc.devRef .tc main_v22_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (W2_arr m ρ c 8).trans (Cert.KernelIdeal.Net1Blocks.final_p m ρ c)

/-- The second region's output array at the end. -/
theorem last_obj (c : Dev nD) : W4 m ρ c (Proc.devRef .tc main_v41) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 6).trans (Cert.KernelIdeal.Net2Blocks.final_obj m ρ c)

/-- The run: both results at the reference's stage functions of the arguments, the arguments unchanged. -/
theorem run : θ_run defs (onTc (τ := τ) (main (F := Ideal))) ⟨m, fun _ => 0, ρ⟩ (fun r => ∀ c : Dev nD,
      r.2.mem ((c.tc : Thread nD τ).loc main_v41) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v22_1) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c _ (mem_uc main_v41 (by decide))).trans (last_obj m ρ c),
       (h c _ (mem_uc main_v22_1 (by decide))).trans (last_pred m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)
    (Cert.KernelIdeal.EndState.run_all m ρ)

end Cert.KernelIdeal.KernelValue

end
-- ==== Proof.lean ====
/-
  A graph convolution on triples: the message network on (subject row, predicate row, object row), average pooling of
  the subject and object messages onto the objects, the object network on the pooled rows.

  The kernel program gathers the subject and object rows on the host, runs the message network in a first region over
  blocks of 1600 triples — the first layer as three partial products against the three bands of the first weight
  matrix —, pools and counts on the host with scatter-adds, and runs the object network (with the division by the
  clamped count inside) in a second region over blocks of 2000 objects.  The reference joins the three rows and uses
  one product, pools and counts with the same scatter-adds, clamps and divides on the host, and applies the object
  network.  Over the extended reals every change of float format is the identity, a sum over the 384 joined entries is
  the sum of its three thirds, and everything else is the same operations on equal operands: the two results agree
  entry by entry.  No input needs to be finite for this, so the precondition is never opened.

  The three frame claims are the generated frame certificates (the reference's is its generated run with the results
  dropped); the idealization rewrote nothing, so its claim is trivial.
-/
import proofs.«163111_j10668698763869_2_alg».proof.Defs
import proofs.«163111_j10668698763869_2_alg».proof.Proof.Gen.Kernel
import proofs.«163111_j10668698763869_2_alg».proof.Proof.Gen.Kernel.Skeleton
import proofs.«163111_j10668698763869_2_alg».proof.Proof.Gen.Kernel.Launch
import proofs.«163111_j10668698763869_2_alg».proof.Proof.Gen.Kernel.Points
import proofs.«163111_j10668698763869_2_alg».proof.Proof.Gen.Kernel.Frame
import proofs.«163111_j10668698763869_2_alg».proof.Proof.Gen.KernelIdeal
import proofs.«163111_j10668698763869_2_alg».proof.Proof.Gen.KernelIdeal.Skeleton
import proofs.«163111_j10668698763869_2_alg».proof.Proof.Gen.KernelIdeal.Launch
import proofs.«163111_j10668698763869_2_alg».proof.Proof.Gen.KernelIdeal.Points
import proofs.«163111_j10668698763869_2_alg».proof.Proof.Gen.KernelIdeal.Frame
import proofs.«163111_j10668698763869_2_alg».proof.Proof.Gen.ReferenceIdeal
import proofs.«163111_j10668698763869_2_alg».proof.Proof.Gen.ReferenceIdeal.Run
import proofs.«163111_j10668698763869_2_alg».proof.Proof.Gen.ReferenceIdeal.Read
import proofs.«163111_j10668698763869_2_alg».proof.Proof.Gen.Pre_finite_inputs
import proofs.«163111_j10668698763869_2_alg».proof.Proof.KernelValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the new object vectors at the reference's object network of the pooled rows and the new
    predicate vectors at the reference's middle column slice of its message network, of arguments that agree. -/
theorem algebraic : Cert.algebraic_KernelIdeal_ReferenceIdeal := by
  intro m ρ m' ρ' _ hagree
  refine ⟨fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v61_eq, e0, e1, e2, e3, e4, e5, e6, e7, e8, e9, e10]
  · obtain ⟨e0, e1, e2, e3, e4, e5, e6, -⟩ := hagree c
    rw [Cert.ReferenceIdeal.Read.val_main_v30_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
